-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S500000x1 : Shape := ⟨2, ![500000, 1]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500000x1 : S_.BroadcastsInDim S500000x1 (![] : Fin 0 → Fin S500000x1.rank)
  reducesTo_S500000x1_S_d0_1 : S500000x1.ReducesTo [0, 1] S_

variable [Facts]

def fn_part2 {F : FTy → Type} [FloatOps F] (main_arg7 : FVec F S500000x1 .f32) (main_v33 : IVec S_ 1) : IVec S_ 1 :=
  let main_v34 : FVec F S500000x1 .f32 := Host.absf main_arg7
  let main_cst_12 : FVec F S_ .f32 := constant S_ .f32 0x7F800000#32
  let main_v35 : FVec F S500000x1 .f32 := broadcastInDim S500000x1 ![] bcast_S_S500000x1 main_cst_12
  let main_v36 : IVec S500000x1 1 := cmpf .olt main_v34 main_v35
  let main_c_13 : IVec S_ 1 := constantI S_ 1 1#1
  let main_v37 : IVec S_ 1 := (fun x v => Host.reduce IntOp.andi x v reducesTo_S500000x1_S_d0_1 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S500000x1 .f32) (main_arg7 : FVec F S500000x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S500000x1 .f32 := Host.absf main_arg6
  let main_cst_10 : FVec F S_ .f32 := constant S_ .f32 0x7F800000#32
  let main_v30 : FVec F S500000x1 .f32 := broadcastInDim S500000x1 ![] bcast_S_S500000x1 main_cst_10
  let main_v31 : IVec S500000x1 1 := cmpf .olt main_v29 main_v30
  let main_c_11 : IVec S_ 1 := constantI S_ 1 1#1
  let main_v32 : IVec S_ 1 := (fun x v => Host.reduce IntOp.andi x v reducesTo_S500000x1_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S50000x128 .f32) (main_arg2 : FVec F S128x128 .f32) (main_arg3 : FVec F S128 .f32) (main_arg4 : FVec F S128x128 .f32) (main_arg5 : FVec F S128 .f32) (main_arg6 : FVec F S500000x1 .f32) (main_arg7 : FVec F S500000x1 .f32) (main_arg8 : IVec S500000 32) (main_arg9 : IVec S500000 32) (main_arg10 : IVec S500000 32) (main_arg11 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S500000x1 : Shape := ⟨2, ![500000, 1]⟩
abbrev S500000 : Shape := ⟨1, ![500000]⟩
abbrev S_ : Shape := ⟨0, ![]⟩
abbrev S500000x128 : Shape := ⟨2, ![500000, 128]⟩
abbrev S5000x128 : Shape := ⟨2, ![5000, 128]⟩
abbrev S5000x1 : Shape := ⟨2, ![5000, 1]⟩
abbrev S1x128 : Shape := ⟨2, ![1, 128]⟩
abbrev S5000 : Shape := ⟨1, ![5000]⟩

abbrev nBuf : Space → Nat
  | .hbm => 60
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S500000x1, .f32⟩
  | .hbm, ⟨7, _⟩ => ⟨S500000x1, .f32⟩
  | .hbm, ⟨8, _⟩ => ⟨S500000, .i32⟩
  | .hbm, ⟨9, _⟩ => ⟨S500000, .i32⟩
  | .hbm, ⟨10, _⟩ => ⟨S500000, .i32⟩
  | .hbm, ⟨11, _⟩ => ⟨S500000, .i32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x128, .f32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x128, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000x128, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x128, .f32⟩
  | .hbm, ⟨48, _⟩ => ⟨S500000x128, .f32⟩
  | .hbm, ⟨49, _⟩ => ⟨S500000x128, .f32⟩
  | .hbm, ⟨50, _⟩ => ⟨S_, .f32⟩
  | .hbm, ⟨51, _⟩ => ⟨S50000x128, .f32⟩
  | .hbm, ⟨52, _⟩ => ⟨S500000x1, .i32⟩
  | .hbm, ⟨53, _⟩ => ⟨S50000x128, .f32⟩
  | .hbm, ⟨54, _⟩ => ⟨S_, .f32⟩
  | .hbm, ⟨55, _⟩ => ⟨S100000x128, .f32⟩
  | .hbm, ⟨56, _⟩ => ⟨S500000x1, .i32⟩
  | .hbm, ⟨57, _⟩ => ⟨S100000x128, .f32⟩
  | .hbm, ⟨58, _⟩ => ⟨S100000x128, .f32⟩
  | .hbm, ⟨59, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29
abbrev cc2_sem4_0 : DmaSem sig := 30
abbrev cc2_sem4_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem3_1 : DmaSem sig := 37
abbrev cc3_sem4_0 : DmaSem sig := 38
abbrev cc3_sem4_1 : DmaSem sig := 39

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  broadcasts_S5000x1_S5000x128 : S5000x1.Broadcasts S5000x128
  bcast_S_S50000x128 : S_.BroadcastsInDim S50000x128 (![] : Fin 0 → Fin S50000x128.rank)
  bcast_S_S100000x128 : S_.BroadcastsInDim S100000x128 (![] : Fin 0 → Fin S100000x128.rank)
  reduces_S5000x128_S5000 : S5000x128.Reduces [1] S5000
  shapeCasts_S5000_S5000x1 : S5000.ShapeCasts S5000x1
  gather_S100000x128_S500000x1_S500000x128_1_0_n_n_0_1_1128_wf : GatherDims.WF S100000x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  dot_S5000x128_S128x128_S5000x128_1_0_0_1_n_n_wf : DotDims.WF S5000x128 S128x128 S5000x128 [1] [0] [0] [1] [] []
  scatter_S50000x128_S500000x1_S500000x128_1_0_0_1_wf : ScatterDims.WF S50000x128 S500000x1 S500000x128 [1] [0] [0] 1
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S500000x1.size a
  hwx0_2 : ∀ i : grid0.Coords, EltTy.bits .f32 = 32 ∨ (Rect.block (s := S500000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S500000x128.size a
  hwx0_7 : ∀ i : grid0.Coords, EltTy.bits .f32 = 32 ∨ (Rect.block (s := S500000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S500000x1.size a
  hwx1_2 : ∀ i : grid1.Coords, EltTy.bits .f32 = 32 ∨ (Rect.block (s := S500000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S500000x128.size a
  hwx1_7 : ∀ i : grid1.Coords, EltTy.bits .f32 = 32 ∨ (Rect.block (s := S500000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v36) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v37) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S500000x1 : Shape := ⟨2, ![500000, 1]⟩
abbrev S500000 : Shape := ⟨1, ![500000]⟩
abbrev S1x128 : Shape := ⟨2, ![1, 128]⟩
abbrev S_ : Shape := ⟨0, ![]⟩
abbrev S500000x128 : Shape := ⟨2, ![500000, 128]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S500000x1, .f32⟩
  | .hbm, ⟨7, _⟩ => ⟨S500000x1, .f32⟩
  | .hbm, ⟨8, _⟩ => ⟨S500000, .i32⟩
  | .hbm, ⟨9, _⟩ => ⟨S500000, .i32⟩
  | .hbm, ⟨10, _⟩ => ⟨S500000, .i32⟩
  | .hbm, ⟨11, _⟩ => ⟨S500000, .i32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000x128, .f32⟩
  | .hbm, ⟨38, _⟩ => ⟨S500000x128, .f32⟩
  | .hbm, ⟨39, _⟩ => ⟨S1x128, .f32⟩
  | .hbm, ⟨40, _⟩ => ⟨S500000x128, .f32⟩
  | .hbm, ⟨41, _⟩ => ⟨S500000x128, .f32⟩
  | .hbm, ⟨42, _⟩ => ⟨S500000x128, .f32⟩
  | .hbm, ⟨43, _⟩ => ⟨S500000x128, .f32⟩
  | .hbm, ⟨44, _⟩ => ⟨S1x128, .f32⟩
  | .hbm, ⟨45, _⟩ => ⟨S500000x128, .f32⟩
  | .hbm, ⟨46, _⟩ => ⟨S500000x128, .f32⟩
  | .hbm, ⟨47, _⟩ => ⟨S500000x128, .f32⟩
  | .hbm, ⟨48, _⟩ => ⟨S500000x128, .f32⟩
  | .hbm, ⟨49, _⟩ => ⟨S500000x128, .f32⟩
  | .hbm, ⟨50, _⟩ => ⟨S_, .f32⟩
  | .hbm, ⟨51, _⟩ => ⟨S50000x128, .f32⟩
  | .hbm, ⟨52, _⟩ => ⟨S500000x1, .i32⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S500000, .i32⟩
  | .hbm, ⟨57, _⟩ => ⟨S500000, .i1⟩
  | .hbm, ⟨58, _⟩ => ⟨S_, .i32⟩
  | .hbm, ⟨59, _⟩ => ⟨S500000, .i32⟩
  | .hbm, ⟨60, _⟩ => ⟨S500000, .i32⟩
  | .hbm, ⟨61, _⟩ => ⟨S500000, .i32⟩
  | .hbm, ⟨62, _⟩ => ⟨S500000x1, .i32⟩
  | .hbm, ⟨63, _⟩ => ⟨S500000x128, .f32⟩
  | .hbm, ⟨64, _⟩ => ⟨S_, .i32⟩
  | .hbm, ⟨65, _⟩ => ⟨S500000, .i32⟩
  | .hbm, ⟨66, _⟩ => ⟨S500000, .i1⟩
  | .hbm, ⟨67, _⟩ => ⟨S_, .i32⟩
  | .hbm, ⟨68, _⟩ => ⟨S500000, .i32⟩
  | .hbm, ⟨69, _⟩ => ⟨S500000, .i32⟩
  | .hbm, ⟨70, _⟩ => ⟨S500000, .i32⟩
  | .hbm, ⟨71, _⟩ => ⟨S500000x1, .i32⟩
  | .hbm, ⟨72, _⟩ => ⟨S500000x128, .f32⟩
  | .hbm, ⟨73, _⟩ => ⟨S500000x128, .f32⟩
  | .hbm, ⟨74, _⟩ => ⟨S1x128, .f32⟩
  | .hbm, ⟨75, _⟩ => ⟨S500000x128, .f32⟩
  | .hbm, ⟨76, _⟩ => ⟨S500000x128, .f32⟩
  | .hbm, ⟨77, _⟩ => ⟨S500000x128, .f32⟩
  | .hbm, ⟨78, _⟩ => ⟨S500000x128, .f32⟩
  | .hbm, ⟨79, _⟩ => ⟨S1x128, .f32⟩
  | .hbm, ⟨80, _⟩ => ⟨S500000x128, .f32⟩
  | .hbm, ⟨81, _⟩ => ⟨S500000x128, .f32⟩
  | .hbm, ⟨82, _⟩ => ⟨S500000x128, .f32⟩
  | .hbm, ⟨83, _⟩ => ⟨S500000x128, .f32⟩
  | .hbm, ⟨84, _⟩ => ⟨S500000x128, .f32⟩
  | .hbm, ⟨85, _⟩ => ⟨S_, .f32⟩
  | .hbm, ⟨86, _⟩ => ⟨S100000x128, .f32⟩
  | .hbm, ⟨87, _⟩ => ⟨S500000x1, .i32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S_, .f32⟩
  | .hbm, ⟨92, _⟩ => ⟨S100000x128, .f32⟩
  | .hbm, ⟨93, _⟩ => ⟨S100000x128, .i1⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000, .f32⟩
  | .hbm, ⟨101, _⟩ => ⟨S100000x1, .f32⟩
  | .hbm, ⟨102, _⟩ => ⟨S100000x1, .f32⟩
  | .hbm, ⟨103, _⟩ => ⟨S_, .f32⟩
  | .hbm, ⟨104, _⟩ => ⟨S100000x1, .f32⟩
  | .hbm, ⟨105, _⟩ => ⟨S100000x1, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S_, .f32⟩
  | .hbm, ⟨110, _⟩ => ⟨S50000x128, .f32⟩
  | .hbm, ⟨111, _⟩ => ⟨S50000x128, .i1⟩
  | .hbm, ⟨112, _⟩ => ⟨S_, .f32⟩
  | .hbm, ⟨113, _⟩ => ⟨S50000x128, .f32⟩
  | .hbm, ⟨114, _⟩ => ⟨S50000x128, .f32⟩
  | .hbm, ⟨115, _⟩ => ⟨S50000x128, .f32⟩
  | .hbm, ⟨116, _⟩ => ⟨S50000x128, .f32⟩
  | .hbm, ⟨117, _⟩ => ⟨S_, .f32⟩
  | .hbm, ⟨118, _⟩ => ⟨S50000, .f32⟩
  | .hbm, ⟨119, _⟩ => ⟨S50000x1, .f32⟩
  | .hbm, ⟨120, _⟩ => ⟨S50000x1, .f32⟩
  | .hbm, ⟨121, _⟩ => ⟨S_, .f32⟩
  | .hbm, ⟨122, _⟩ => ⟨S50000x1, .f32⟩
  | .hbm, ⟨123, _⟩ => ⟨S50000x1, .f32⟩
  | .hbm, ⟨124, _⟩ => ⟨S50000x128, .f32⟩
  | .hbm, ⟨125, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_3 : Ref sig .tc := ⟨.hbm, 55, rfl⟩
abbrev main_v38 : Ref sig .tc := ⟨.hbm, 56, rfl⟩
abbrev main_v39 : Ref sig .tc := ⟨.hbm, 57, rfl⟩
abbrev main_c_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_5 : Ref sig .tc := ⟨.hbm, 64, rfl⟩
abbrev main_v45 : Ref sig .tc := ⟨.hbm, 65, rfl⟩
abbrev main_v46 : Ref sig .tc := ⟨.hbm, 66, rfl⟩
abbrev main_c_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_7 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_8 : Ref sig .tc := ⟨.hbm, 90, rfl⟩
abbrev main_call0_cst : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_v68 : Ref sig .tc := ⟨.hbm, 97, rfl⟩
abbrev main_call1_v0 : Ref sig .tc := ⟨.hbm, 98, rfl⟩
abbrev main_call1_cst : Ref sig .tc := ⟨.hbm, 99, rfl⟩
abbrev main_call1_v1 : Ref sig .tc := ⟨.hbm, 100, rfl⟩
abbrev main_call1_v2 : Ref sig .tc := ⟨.hbm, 101, rfl⟩
abbrev main_v69 : Ref sig .tc := ⟨.hbm, 102, rfl⟩
abbrev main_cst_9 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_10 : Ref sig .tc := ⟨.hbm, 108, rfl⟩
abbrev main_call2_cst : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_v74 : Ref sig .tc := ⟨.hbm, 115, rfl⟩
abbrev main_call3_v0 : Ref sig .tc := ⟨.hbm, 116, rfl⟩
abbrev main_call3_cst : Ref sig .tc := ⟨.hbm, 117, rfl⟩
abbrev main_call3_v1 : Ref sig .tc := ⟨.hbm, 118, rfl⟩
abbrev main_call3_v2 : Ref sig .tc := ⟨.hbm, 119, rfl⟩
abbrev main_v75 : Ref sig .tc := ⟨.hbm, 120, rfl⟩
abbrev main_cst_11 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S50000x128_0_1 : S1x128.BroadcastsInDim S50000x128 (![0, 1] : Fin 2 → Fin S50000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S1x128_S500000x128_0_1 : S1x128.BroadcastsInDim S500000x128 (![0, 1] : Fin 2 → Fin S500000x128.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  gather_S100000x128_S500000x1_S500000x128_1_0_n_n_0_1_1128_wf : GatherDims.WF S100000x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  dot_S500000x128_S128x128_S500000x128_1_0_0_1_n_n_wf : DotDims.WF S500000x128 S128x128 S500000x128 [1] [0] [0] [1] [] []
  scatter_S50000x128_S500000x1_S500000x128_1_0_0_1_wf : ScatterDims.WF S50000x128 S500000x1 S500000x128 [1] [0] [0] 1
  scatter_S100000x128_S500000x1_S500000x128_1_0_0_1_wf : ScatterDims.WF S100000x128 S500000x1 S500000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.KRun.lean ====
/-
  The kernel program's run, with its two results named.

  The run of the program from any launch memory with zero counters terminates without fault, and it ends with every
  unscoped buffer of each core holding the contents of the last segment boundary (the fold of the program's segments
  from the launch memory). The two result buffers and the twelve argument buffers are read there: each result is the
  last boundary's contents at its reference, and each argument, which no host operation and no region writes, walks
  back through the fold to its launch contents.
-/
import proofs.«124240_j52201032516155_2_alg».proof.Proof.Gen.KernelIdeal.Frame
import Idealize.ShloMosaic.PureOps.Ideal

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run from any memory with zero counters terminates, nothing faulting, and every final state has each core's two
    result buffers at the last boundary's contents and its twelve argument buffers as launched. -/
theorem run_results : θ_run (defs (F := Ideal)) (onTc (τ := τ) (main (F := Ideal))) ⟨m, fun _ => 0, ρ⟩ (fun r => ∀ c : Dev nD,
      r.2.mem ((c.tc : Thread nD τ).loc main_v36) = Gen.W6 m ρ c (Proc.devRef .tc main_v36)
      ∧ r.2.mem ((c.tc : Thread nD τ).loc main_v37) = Gen.W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.KRun

end
-- ==== Proof.KBoundDefs.lean ====
/-
  The host operations of the kernel program, as functions of their operands.

  An edge index below zero is counted from the end: `wrapCol n e` adds `n` to every negative entry of the index
  vector `e` and writes the result as a one-column array, the form in which a row gather takes its indices.
  `scatU idx u` and `scatI idx u` add row `r` of the edge-indexed array `u` into row `idx r` of an array of zeros
  with one row per user node, respectively per item node: the sum of the messages that arrive at each node.
-/
import proofs.«124240_j52201032516155_2_alg».proof.Proof.Gen.KernelIdeal
import Idealize.ShloMosaic.PureOps.Ideal

noncomputable section

namespace Cert.KernelIdeal.KBound

open Idealize.ShloMosaic
open Facts₀

/-- The index vector `e` with `n` added to its negative entries, as a one-column array. -/
def wrapCol (n : BitVec 32) (e : IVec S500000 32) : IVec S500000x1 32 :=
  broadcastInDim S500000x1 ![0] bcast_S500000_S500000x1_0
    (select (cmpi .slt e (broadcastInDim S500000 ![] bcast_S_S500000 (constantI S_ 32 0#32)))
      (addi e (broadcastInDim S500000 ![] bcast_S_S500000 (constantI S_ 32 n))) e)

/-- Row `r` of `u` added into row `idx r` of zeros, one row per user node. -/
def scatU (idx : IVec S500000 32) (u : FVec Ideal S500000x128 .f32) : FVec Ideal S100000x128 .f32 :=
  Host.scatterAdd scatter_S100000x128_S500000x1_S500000x128_1_0_0_1
    (broadcastInDim S100000x128 ![] bcast_S_S100000x128 (constant (F := Ideal) S_ .f32 0x00000000#32))
    (broadcastInDim S500000x1 ![0] bcast_S500000_S500000x1_0 idx) u

/-- Row `r` of `u` added into row `idx r` of zeros, one row per item node. -/
def scatI (idx : IVec S500000 32) (u : FVec Ideal S500000x128 .f32) : FVec Ideal S50000x128 .f32 :=
  Host.scatterAdd scatter_S50000x128_S500000x1_S500000x128_1_0_0_1
    (broadcastInDim S50000x128 ![] bcast_S_S50000x128 (constant (F := Ideal) S_ .f32 0x00000000#32))
    (broadcastInDim S500000x1 ![0] bcast_S500000_S500000x1_0 idx) u

end Cert.KernelIdeal.KBound

end
-- ==== Proof.KBound.lean ====
/-
  The kernel program's buffer contents at the region boundaries.

  The program is a stretch of host operations (four index wraps and row gathers), two edge regions, a second stretch
  of host operations (two scatter-adds into zeros), and two finishing regions. The contents of each core's buffers at
  a boundary are a fold over these segments from the launch memory: a host stretch rewrites the buffers its
  operations write, a region leaves its output array at what its write-backs leave and every other buffer as entered.
  Each lemma below reads one buffer at one boundary through that fold, one segment at a time: an argument array,
  which no segment writes, walks back to the launch memory; a gathered array is the gather of an argument's rows at
  the wrapped index column; a scattered array is the scatter-add of the preceding edge region's output into zeros;
  and each result is the output array of a finishing region.
-/
import proofs.«124240_j52201032516155_2_alg».proof.Proof.Gen.KernelIdeal.Frame
import proofs.«124240_j52201032516155_2_alg».proof.Proof.KBoundDefs
import Idealize.ShloMosaic.PureOps.Ideal
import Idealize.ShloMosaic.Lib.StableHlo.Run

set_option maxRecDepth 16384

noncomputable section

namespace Cert.KernelIdeal.KBound

open Idealize.ShloMosaic Idealize.ShloMosaic.TcCoe Idealize.ShloMosaic.Tactic
open Cert.KernelIdeal.Gen
open Facts₀

variable (m : (ℓ : Loc nD τ sig) → Buf (Elt Ideal) ℓ) (ρ : Dev nD → PrngReg) (c : Dev nD)

/-- No operation of the first host stretch writes the reference: the goal `∀ op ∈ hostOps0, b ∉ op.writes`. -/
local macro "not_written0" : tactic =>
  `(tactic| (refine List.forall_iff_forall_mem.mp ?_
             simp only [hostOps0, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))
/-- No operation of the second host stretch writes the reference. -/
local macro "not_written2" : tactic =>
  `(tactic| (refine List.forall_iff_forall_mem.mp ?_
             simp only [hostOps2, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## After the first host stretch (the first edge region's entry) -/

/-- An argument the first host stretch does not write is as launched. -/
theorem W1_arg0 : W1 m ρ c (Proc.devRef .tc main_arg0) = m ((c : Thread nD τ).loc main_arg0) :=
  StableHlo.after_of_forall_not_mem (b := Proc.devRef .tc main_arg0) _ _ (by not_written0)
theorem W1_arg1 : W1 m ρ c (Proc.devRef .tc main_arg1) = m ((c : Thread nD τ).loc main_arg1) :=
  StableHlo.after_of_forall_not_mem (b := Proc.devRef .tc main_arg1) _ _ (by not_written0)
theorem W1_arg2 : W1 m ρ c (Proc.devRef .tc main_arg2) = m ((c : Thread nD τ).loc main_arg2) :=
  StableHlo.after_of_forall_not_mem (b := Proc.devRef .tc main_arg2) _ _ (by not_written0)
theorem W1_arg3 : W1 m ρ c (Proc.devRef .tc main_arg3) = m ((c : Thread nD τ).loc main_arg3) :=
  StableHlo.after_of_forall_not_mem (b := Proc.devRef .tc main_arg3) _ _ (by not_written0)
theorem W1_arg4 : W1 m ρ c (Proc.devRef .tc main_arg4) = m ((c : Thread nD τ).loc main_arg4) :=
  StableHlo.after_of_forall_not_mem (b := Proc.devRef .tc main_arg4) _ _ (by not_written0)
theorem W1_arg5 : W1 m ρ c (Proc.devRef .tc main_arg5) = m ((c : Thread nD τ).loc main_arg5) :=
  StableHlo.after_of_forall_not_mem (b := Proc.devRef .tc main_arg5) _ _ (by not_written0)
theorem W1_arg6 : W1 m ρ c (Proc.devRef .tc main_arg6) = m ((c : Thread nD τ).loc main_arg6) :=
  StableHlo.after_of_forall_not_mem (b := Proc.devRef .tc main_arg6) _ _ (by not_written0)
theorem W1_arg7 : W1 m ρ c (Proc.devRef .tc main_arg7) = m ((c : Thread nD τ).loc main_arg7) :=
  StableHlo.after_of_forall_not_mem (b := Proc.devRef .tc main_arg7) _ _ (by not_written0)
theorem W1_arg9 : W1 m ρ c (Proc.devRef .tc main_arg9) = m ((c : Thread nD τ).loc main_arg9) :=
  StableHlo.after_of_forall_not_mem (b := Proc.devRef .tc main_arg9) _ _ (by not_written0)
theorem W1_arg11 : W1 m ρ c (Proc.devRef .tc main_arg11) = m ((c : Thread nD τ).loc main_arg11) :=
  StableHlo.after_of_forall_not_mem (b := Proc.devRef .tc main_arg11) _ _ (by not_written0)

set_option maxHeartbeats 1000000 in
/-- The first edge region's source rows: the user rows gathered at the wrapped source indices. -/
theorem V1_v6 : (V1 m ρ c main_v6 : FVec Ideal S500000x128 .f32)
    = Host.gather gather_S100000x128_S500000x1_S500000x128_1_0_n_n_0_1_1128 (m ((c : Thread nD τ).loc main_arg0))
        (wrapCol 100000#32 (m ((c : Thread nD τ).loc main_arg8))) := by
  dsimp only [V1, W1, hostOps0]
  after_results_simp
  rfl
set_option maxHeartbeats 1000000 in
/-- The first edge region's destination rows: the item rows gathered at the wrapped destination indices. -/
theorem V1_v13 : (V1 m ρ c main_v13 : FVec Ideal S500000x128 .f32)
    = Host.gather gather_S50000x128_S500000x1_S500000x128_1_0_n_n_0_1_1128 (m ((c : Thread nD τ).loc main_arg1))
        (wrapCol 50000#32 (m ((c : Thread nD τ).loc main_arg9))) := by
  dsimp only [V1, W1, hostOps0]
  after_results_simp
  rfl
theorem V1_arg6 : V1 m ρ c main_arg6 = m ((c : Thread nD τ).loc main_arg6) := W1_arg6 m ρ c
theorem V1_arg2 : V1 m ρ c main_arg2 = m ((c : Thread nD τ).loc main_arg2) := W1_arg2 m ρ c
theorem V1_arg3 : V1 m ρ c main_arg3 = m ((c : Thread nD τ).loc main_arg3) := W1_arg3 m ρ c
theorem V1_arg4 : V1 m ρ c main_arg4 = m ((c : Thread nD τ).loc main_arg4) := W1_arg4 m ρ c
theorem V1_arg5 : V1 m ρ c main_arg5 = m ((c : Thread nD τ).loc main_arg5) := W1_arg5 m ρ c

/-! ## After the first edge region (the second edge region's entry) -/

theorem W2_arg0 : W2 m ρ c (Proc.devRef .tc main_arg0) = m ((c : Thread nD τ).loc main_arg0) :=
  (W2_of_ne m ρ c main_arg0 (by decide)).trans (W1_arg0 m ρ c)
theorem W2_arg1 : W2 m ρ c (Proc.devRef .tc main_arg1) = m ((c : Thread nD τ).loc main_arg1) :=
  (W2_of_ne m ρ c main_arg1 (by decide)).trans (W1_arg1 m ρ c)
/-- A weight or bias array is an input window of the region: it leaves the region as it entered. -/
theorem W2_arg2 : W2 m ρ c (Proc.devRef .tc main_arg2) = m ((c : Thread nD τ).loc main_arg2) :=
  ((W2_arr m ρ c 3).trans (((dat0 (V1 m ρ) c).arrAt_in 3 rfl _).trans (A_eq0 (V1 m ρ) c 3))).trans (W1_arg2 m ρ c)
theorem W2_arg3 : W2 m ρ c (Proc.devRef .tc main_arg3) = m ((c : Thread nD τ).loc main_arg3) :=
  ((W2_arr m ρ c 4).trans (((dat0 (V1 m ρ) c).arrAt_in 4 rfl _).trans (A_eq0 (V1 m ρ) c 4))).trans (W1_arg3 m ρ c)
theorem W2_arg4 : W2 m ρ c (Proc.devRef .tc main_arg4) = m ((c : Thread nD τ).loc main_arg4) :=
  ((W2_arr m ρ c 5).trans (((dat0 (V1 m ρ) c).arrAt_in 5 rfl _).trans (A_eq0 (V1 m ρ) c 5))).trans (W1_arg4 m ρ c)
theorem W2_arg5 : W2 m ρ c (Proc.devRef .tc main_arg5) = m ((c : Thread nD τ).loc main_arg5) :=
  ((W2_arr m ρ c 6).trans (((dat0 (V1 m ρ) c).arrAt_in 6 rfl _).trans (A_eq0 (V1 m ρ) c 6))).trans (W1_arg5 m ρ c)
theorem W2_arg7 : W2 m ρ c (Proc.devRef .tc main_arg7) = m ((c : Thread nD τ).loc main_arg7) :=
  (W2_of_ne m ρ c main_arg7 (by decide)).trans (W1_arg7 m ρ c)
theorem W2_arg9 : W2 m ρ c (Proc.devRef .tc main_arg9) = m ((c : Thread nD τ).loc main_arg9) :=
  (W2_of_ne m ρ c main_arg9 (by decide)).trans (W1_arg9 m ρ c)
theorem W2_arg11 : W2 m ρ c (Proc.devRef .tc main_arg11) = m ((c : Thread nD τ).loc main_arg11) :=
  (W2_of_ne m ρ c main_arg11 (by decide)).trans (W1_arg11 m ρ c)

set_option maxHeartbeats 1000000 in
/-- The second edge region's source rows: the item rows gathered at the wrapped source indices. -/
theorem V2_v20 : (V2 m ρ c main_v20 : FVec Ideal S500000x128 .f32)
    = Host.gather gather_S50000x128_S500000x1_S500000x128_1_0_n_n_0_1_1128 (m ((c : Thread nD τ).loc main_arg1))
        (wrapCol 50000#32 (m ((c : Thread nD τ).loc main_arg10))) := by
  refine (W2_of_ne m ρ c main_v20 (by decide)).trans ?_
  dsimp only [W1, hostOps0]
  after_results_simp
  rfl
set_option maxHeartbeats 1000000 in
/-- The second edge region's destination rows: the user rows gathered at the wrapped destination indices. -/
theorem V2_v27 : (V2 m ρ c main_v27 : FVec Ideal S500000x128 .f32)
    = Host.gather gather_S100000x128_S500000x1_S500000x128_1_0_n_n_0_1_1128 (m ((c : Thread nD τ).loc main_arg0))
        (wrapCol 100000#32 (m ((c : Thread nD τ).loc main_arg11))) := by
  refine (W2_of_ne m ρ c main_v27 (by decide)).trans ?_
  dsimp only [W1, hostOps0]
  after_results_simp
  rfl
theorem V2_arg7 : V2 m ρ c main_arg7 = m ((c : Thread nD τ).loc main_arg7) := W2_arg7 m ρ c
theorem V2_arg2 : V2 m ρ c main_arg2 = m ((c : Thread nD τ).loc main_arg2) := W2_arg2 m ρ c
theorem V2_arg3 : V2 m ρ c main_arg3 = m ((c : Thread nD τ).loc main_arg3) := W2_arg3 m ρ c
theorem V2_arg4 : V2 m ρ c main_arg4 = m ((c : Thread nD τ).loc main_arg4) := W2_arg4 m ρ c
theorem V2_arg5 : V2 m ρ c main_arg5 = m ((c : Thread nD τ).loc main_arg5) := W2_arg5 m ρ c

/-! ## After the second edge region, and after the second host stretch (the first finishing region's entry) -/

theorem W3_arg0 : W3 m ρ c (Proc.devRef .tc main_arg0) = m ((c : Thread nD τ).loc main_arg0) :=
  (W3_of_ne m ρ c main_arg0 (by decide)).trans (W2_arg0 m ρ c)
theorem W3_arg1 : W3 m ρ c (Proc.devRef .tc main_arg1) = m ((c : Thread nD τ).loc main_arg1) :=
  (W3_of_ne m ρ c main_arg1 (by decide)).trans (W2_arg1 m ρ c)
theorem W3_arg2 : W3 m ρ c (Proc.devRef .tc main_arg2) = m ((c : Thread nD τ).loc main_arg2) :=
  ((W3_arr m ρ c 3).trans (((dat1 (V2 m ρ) c).arrAt_in 3 rfl _).trans (A_eq1 (V2 m ρ) c 3))).trans (W2_arg2 m ρ c)
theorem W3_arg3 : W3 m ρ c (Proc.devRef .tc main_arg3) = m ((c : Thread nD τ).loc main_arg3) :=
  ((W3_arr m ρ c 4).trans (((dat1 (V2 m ρ) c).arrAt_in 4 rfl _).trans (A_eq1 (V2 m ρ) c 4))).trans (W2_arg3 m ρ c)
theorem W3_arg9 : W3 m ρ c (Proc.devRef .tc main_arg9) = m ((c : Thread nD τ).loc main_arg9) :=
  (W3_of_ne m ρ c main_arg9 (by decide)).trans (W2_arg9 m ρ c)
theorem W3_arg11 : W3 m ρ c (Proc.devRef .tc main_arg11) = m ((c : Thread nD τ).loc main_arg11) :=
  (W3_of_ne m ρ c main_arg11 (by decide)).trans (W2_arg11 m ρ c)
/-- The first edge region's output array, which the second edge region does not touch. -/
theorem W3_v28 : W3 m ρ c (Proc.devRef .tc main_v28) = (dat0 (V1 m ρ) c).arrAt 7 cfg0.N :=
  (W3_of_ne m ρ c main_v28 (by decide)).trans (W2_arr m ρ c 7)
/-- The second edge region's output array. -/
theorem W3_v29 : W3 m ρ c (Proc.devRef .tc main_v29) = (dat1 (V2 m ρ) c).arrAt 7 cfg1.N :=
  W3_arr m ρ c 7

theorem W4_arg0 : W4 m ρ c (Proc.devRef .tc main_arg0) = m ((c : Thread nD τ).loc main_arg0) :=
  (StableHlo.after_of_forall_not_mem (b := Proc.devRef .tc main_arg0) _ _ (by not_written2)).trans (W3_arg0 m ρ c)
theorem W4_arg1 : W4 m ρ c (Proc.devRef .tc main_arg1) = m ((c : Thread nD τ).loc main_arg1) :=
  (StableHlo.after_of_forall_not_mem (b := Proc.devRef .tc main_arg1) _ _ (by not_written2)).trans (W3_arg1 m ρ c)
theorem W4_arg2 : W4 m ρ c (Proc.devRef .tc main_arg2) = m ((c : Thread nD τ).loc main_arg2) :=
  (StableHlo.after_of_forall_not_mem (b := Proc.devRef .tc main_arg2) _ _ (by not_written2)).trans (W3_arg2 m ρ c)
theorem W4_arg3 : W4 m ρ c (Proc.devRef .tc main_arg3) = m ((c : Thread nD τ).loc main_arg3) :=
  (StableHlo.after_of_forall_not_mem (b := Proc.devRef .tc main_arg3) _ _ (by not_written2)).trans (W3_arg3 m ρ c)

theorem V4_arg0 : V4 m ρ c main_arg0 = m ((c : Thread nD τ).loc main_arg0) := W4_arg0 m ρ c
theorem V4_arg2 : V4 m ρ c main_arg2 = m ((c : Thread nD τ).loc main_arg2) := W4_arg2 m ρ c
theorem V4_arg3 : V4 m ρ c main_arg3 = m ((c : Thread nD τ).loc main_arg3) := W4_arg3 m ρ c

set_option maxHeartbeats 1000000 in
/-- The sums arriving at the user nodes: the second edge region's messages added into zeros at their destinations. -/
theorem W4_v35 : (W4 m ρ c (Proc.devRef .tc main_v35) : FVec Ideal S100000x128 .f32)
    = scatU (m ((c : Thread nD τ).loc main_arg11)) ((dat1 (V2 m ρ) c).arrAt 7 cfg1.N) := by
  dsimp only [W4, hostOps2]
  after_results_simp
  rw [W3_arg11 m ρ c, W3_v29 m ρ c]
  rfl
theorem V4_v35 : (V4 m ρ c main_v35 : FVec Ideal S100000x128 .f32)
    = scatU (m ((c : Thread nD τ).loc main_arg11)) ((dat1 (V2 m ρ) c).arrAt 7 cfg1.N) := W4_v35 m ρ c
set_option maxHeartbeats 1000000 in
/-- The sums arriving at the item nodes: the first edge region's messages added into zeros at their destinations. -/
theorem W4_v32 : (W4 m ρ c (Proc.devRef .tc main_v32) : FVec Ideal S50000x128 .f32)
    = scatI (m ((c : Thread nD τ).loc main_arg9)) ((dat0 (V1 m ρ) c).arrAt 7 cfg0.N) := by
  dsimp only [W4, hostOps2]
  after_results_simp
  rw [W3_arg9 m ρ c, W3_v28 m ρ c]
  rfl

/-! ## After the first finishing region (the second finishing region's entry), and the results -/

theorem V5_arg1 : V5 m ρ c main_arg1 = m ((c : Thread nD τ).loc main_arg1) :=
  (W5_of_ne m ρ c main_arg1 (by decide)).trans (W4_arg1 m ρ c)
theorem V5_arg2 : V5 m ρ c main_arg2 = m ((c : Thread nD τ).loc main_arg2) :=
  ((W5_arr m ρ c 1).trans (((dat2 (V4 m ρ) c).arrAt_in 1 rfl _).trans (A_eq2 (V4 m ρ) c 1))).trans (W4_arg2 m ρ c)
theorem V5_arg3 : V5 m ρ c main_arg3 = m ((c : Thread nD τ).loc main_arg3) :=
  ((W5_arr m ρ c 2).trans (((dat2 (V4 m ρ) c).arrAt_in 2 rfl _).trans (A_eq2 (V4 m ρ) c 2))).trans (W4_arg3 m ρ c)
/-- The sums arriving at the item nodes, which the first finishing region does not touch. -/
theorem V5_v32 : (V5 m ρ c main_v32 : FVec Ideal S50000x128 .f32)
    = scatI (m ((c : Thread nD τ).loc main_arg9)) ((dat0 (V1 m ρ) c).arrAt 7 cfg0.N) :=
  (W5_of_ne m ρ c main_v32 (by decide)).trans (W4_v32 m ρ c)

/-- The second result is the second finishing region's output array. -/
theorem W6_v37 : W6 m ρ c (Proc.devRef .tc main_v37) = (dat3 (V5 m ρ) c).arrAt 4 cfg3.N :=
  W6_arr m ρ c 4
/-- The first result is the first finishing region's output array, which the second finishing region does not touch. -/
theorem W6_v36 : W6 m ρ c (Proc.devRef .tc main_v36) = (dat2 (V4 m ρ) c).arrAt 4 cfg2.N :=
  (W6_of_ne m ρ c main_v36 (by decide)).trans (W5_arr m ρ c 4)

end Cert.KernelIdeal.KBound

end
-- ==== Proof.Spec.lean ====
/-
  One round of message passing between two kinds of nodes, entry by entry over the extended reals.

  Every edge carries a message: with `a` the source node's feature row and `b` the destination's, the message is
  the edge's weight times ( `a` through the first linear map plus its bias, plus the entrywise product `a ∘ b`
  through the second linear map plus its bias ). A node's new row starts from its own row through the first linear
  map plus the bias, plus the sum `s` of the messages that arrive at it; every entry is then kept if positive and
  scaled by a fixed slope otherwise, and the row is divided by its Euclidean length, floored by a tiny constant.

  Both computations act row by row: entry `(r, j)` of the result reads only row `r` of the row-indexed operands
  (`msgAt_rows`, `finAt_rows`). This is what lets a computation carried out on blocks of rows be compared with
  the same computation carried out on the whole array.
-/
import Idealize.ShloMosaic.PureOps.Ideal
import Idealize.ShloMosaic.Lib.ValueIdx

noncomputable section

namespace Cert.Spec

open Idealize.ShloMosaic Idealize.ShloMosaic.ValueIdx

/-- The slope applied to an entry that is not positive (the single-precision number nearest one fifth). -/
abbrev slope : EReal := Ideal.ofBits .f32 0x3E4CCCCD#32
/-- The floor under a row's Euclidean length (the single-precision number nearest 10⁻¹²). -/
abbrev tiny : EReal := Ideal.ofBits .f32 0x2B8CBCCC#32

/-- Entry `(r, j)` of the message on edge `r`: the edge's weight `n r` times
    `(a_r · w1 + c1) + ((a_r ∘ b_r) · w2 + c2)` at column `j`. -/
def msgAt {R : ℕ} (a b : (⟨2, ![R, 128]⟩ : Shape).Idx → EReal) (n : (⟨2, ![R, 1]⟩ : Shape).Idx → EReal)
    (w1 : (⟨2, ![128, 128]⟩ : Shape).Idx → EReal) (c1 : (⟨1, ![128]⟩ : Shape).Idx → EReal)
    (w2 : (⟨2, ![128, 128]⟩ : Shape).Idx → EReal) (c2 : (⟨1, ![128]⟩ : Shape).Idx → EReal) (r : Fin R) (j : Fin 128) : EReal :=
  n (ix2 r (0 : Fin 1)) * ((∑ k : Fin 128, a (ix2 r k) * w1 (ix2 k j) + c1 (ix1 j))
    + (∑ k : Fin 128, a (ix2 r k) * b (ix2 r k) * w2 (ix2 k j) + c2 (ix1 j)))

/-- The messages of all edges as one array. -/
def msg {R : ℕ} (a b : (⟨2, ![R, 128]⟩ : Shape).Idx → EReal) (n : (⟨2, ![R, 1]⟩ : Shape).Idx → EReal)
    (w1 : (⟨2, ![128, 128]⟩ : Shape).Idx → EReal) (c1 : (⟨1, ![128]⟩ : Shape).Idx → EReal)
    (w2 : (⟨2, ![128, 128]⟩ : Shape).Idx → EReal) (c2 : (⟨1, ![128]⟩ : Shape).Idx → EReal) :
    (⟨2, ![R, 128]⟩ : Shape).Idx → EReal :=
  fun i => msgAt a b n w1 c1 w2 c2 (i 0) (i 1)

/-- An entry kept if positive, scaled by the slope otherwise. -/
def leaky (h : EReal) : EReal := if 0 < h then h else slope * h

/-- Entry `(r, j)` of a node's row before the slope: `x_r · w + c` at column `j`, plus the arriving sum `s`. -/
def preAt {R : ℕ} (x : (⟨2, ![R, 128]⟩ : Shape).Idx → EReal) (w : (⟨2, ![128, 128]⟩ : Shape).Idx → EReal)
    (c : (⟨1, ![128]⟩ : Shape).Idx → EReal) (s : (⟨2, ![R, 128]⟩ : Shape).Idx → EReal) (r : Fin R) (j : Fin 128) : EReal :=
  (∑ k : Fin 128, x (ix2 r k) * w (ix2 k j) + c (ix1 j)) + s (ix2 r j)

/-- Entry `(r, j)` of a node's new row: the sloped entry divided by the row's Euclidean length, floored by `tiny`. -/
def finAt {R : ℕ} (x : (⟨2, ![R, 128]⟩ : Shape).Idx → EReal) (w : (⟨2, ![128, 128]⟩ : Shape).Idx → EReal)
    (c : (⟨1, ![128]⟩ : Shape).Idx → EReal) (s : (⟨2, ![R, 128]⟩ : Shape).Idx → EReal) (r : Fin R) (j : Fin 128) : EReal :=
  Ideal.div (leaky (preAt x w c s r j))
    (max (Ideal.sqrt (∑ q : Fin 128, leaky (preAt x w c s r q) * leaky (preAt x w c s r q))) tiny)

/-- The new rows of all nodes as one array. -/
def fin {R : ℕ} (x : (⟨2, ![R, 128]⟩ : Shape).Idx → EReal) (w : (⟨2, ![128, 128]⟩ : Shape).Idx → EReal)
    (c : (⟨1, ![128]⟩ : Shape).Idx → EReal) (s : (⟨2, ![R, 128]⟩ : Shape).Idx → EReal) :
    (⟨2, ![R, 128]⟩ : Shape).Idx → EReal :=
  fun i => finAt x w c s (i 0) (i 1)

/-- A message entry reads only row `r` of the edge-indexed operands: two settings whose rows agree give the same entry. -/
theorem msgAt_rows {R R' : ℕ} (a b : (⟨2, ![R, 128]⟩ : Shape).Idx → EReal) (n : (⟨2, ![R, 1]⟩ : Shape).Idx → EReal)
    (a' b' : (⟨2, ![R', 128]⟩ : Shape).Idx → EReal) (n' : (⟨2, ![R', 1]⟩ : Shape).Idx → EReal)
    (w1 : (⟨2, ![128, 128]⟩ : Shape).Idx → EReal) (c1 : (⟨1, ![128]⟩ : Shape).Idx → EReal)
    (w2 : (⟨2, ![128, 128]⟩ : Shape).Idx → EReal) (c2 : (⟨1, ![128]⟩ : Shape).Idx → EReal) (r : Fin R) (r' : Fin R') (j : Fin 128)
    (ha : ∀ k : Fin 128, a (ix2 r k) = a' (ix2 r' k)) (hb : ∀ k : Fin 128, b (ix2 r k) = b' (ix2 r' k))
    (hn : n (ix2 r (0 : Fin 1)) = n' (ix2 r' (0 : Fin 1))) :
    msgAt a b n w1 c1 w2 c2 r j = msgAt a' b' n' w1 c1 w2 c2 r' j := by
  unfold msgAt
  rw [hn]
  simp only [ha, hb]

/-- A node's entry before the slope reads only row `r`. -/
theorem preAt_rows {R R' : ℕ} (x s : (⟨2, ![R, 128]⟩ : Shape).Idx → EReal) (x' s' : (⟨2, ![R', 128]⟩ : Shape).Idx → EReal)
    (w : (⟨2, ![128, 128]⟩ : Shape).Idx → EReal) (c : (⟨1, ![128]⟩ : Shape).Idx → EReal) (r : Fin R) (r' : Fin R')
    (hx : ∀ k : Fin 128, x (ix2 r k) = x' (ix2 r' k)) (hs : ∀ k : Fin 128, s (ix2 r k) = s' (ix2 r' k)) (j : Fin 128) :
    preAt x w c s r j = preAt x' w c s' r' j := by
  unfold preAt
  rw [hs j]
  simp only [hx]

/-- A node's new entry reads only row `r`. -/
theorem finAt_rows {R R' : ℕ} (x s : (⟨2, ![R, 128]⟩ : Shape).Idx → EReal) (x' s' : (⟨2, ![R', 128]⟩ : Shape).Idx → EReal)
    (w : (⟨2, ![128, 128]⟩ : Shape).Idx → EReal) (c : (⟨1, ![128]⟩ : Shape).Idx → EReal) (r : Fin R) (r' : Fin R') (j : Fin 128)
    (hx : ∀ k : Fin 128, x (ix2 r k) = x' (ix2 r' k)) (hs : ∀ k : Fin 128, s (ix2 r k) = s' (ix2 r' k)) :
    finAt x w c s r j = finAt x' w c s' r' j := by
  unfold finAt
  simp only [preAt_rows x s x' s' w c r r' hx hs]

/-- The slope test may be taken strictly or not: at zero both branches give zero. -/
theorem leaky_of_le (h : EReal) : (if 0 ≤ h then h else slope * h) = leaky h := by
  unfold leaky
  by_cases h0 : 0 < h
  · rw [if_pos h0, if_pos h0.le]
  · rw [if_neg h0]
    by_cases h1 : 0 ≤ h
    · have : h = 0 := le_antisymm (not_lt.mp h0) h1
      rw [if_pos h1, this, mul_zero]
    · rw [if_neg h1]

end Cert.Spec

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.EdgePay.lean ====
/-
  The edge kernel's arithmetic on one block of 5000 edges, read at an entry.

  A block holds 5000 rows of the source features `a`, of the destination features `b` and of the edge weights `n`,
  beside the two 128 × 128 matrices and the two biases. The product of a block of rows with a matrix, accumulated
  into zeros, is at entry `(p, q)` the sum over `k` of `(p, k)` times `(k, q)`; a bias is laid along every row and
  the weight column along every column; a change of number format does nothing to an extended real. So the entry the
  kernel stores at `(p, q)` is the message entry of the specification, computed from the block's own rows.
-/
import proofs.«124240_j52201032516155_2_alg».proof.Proof.Gen.KernelIdeal.Skeleton
import proofs.«124240_j52201032516155_2_alg».proof.Proof.Spec
import proofs.«124240_j52201032516155_2_alg».proof.Proof.LibDotRows
import proofs.«124240_j52201032516155_2_alg».proof.Proof.LibColumns
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-- A block of 5000 rows times a 128 × 128 matrix, accumulated into zeros: entry `(p, q)` is `∑ k, l (p, k) · r (k, q)`. -/
theorem rows_times (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  dot_rows dot_S5000x128_S128x128_S5000x128_1_0_0_1_n_n S5000x128 S128x128 128

/-- A bias of 128 entries laid along each of the 5000 rows reads, at `(p, q)`, its entry `q`. -/
theorem bias_rows (x : FVec Ideal S128 .f32) (p : Fin 5000) (q : Fin 128) :
    broadcastTo S5000x128 (shapeCast S1x128 x shapeCasts_S128_S1x128) broadcasts_S1x128_S5000x128 (ix2 p q) = x (ix1 q) :=
  (broadcastTo_1b_ab_apply (shapeCast S1x128 x shapeCasts_S128_S1x128) broadcasts_S1x128_S5000x128 p q).trans
    (shapeCast_a_1a_apply x shapeCasts_S128_S1x128 (0 : Fin 1) q)

/-- A column of 5000 entries laid along each of the 128 columns reads, at `(p, q)`, its entry `p`. -/
theorem col_cols (x : FVec Ideal S5000x1 .f32) (p : Fin 5000) (q : Fin 128) :
    broadcastTo S5000x128 x broadcasts_S5000x1_S5000x128 (ix2 p q) = x (ix2 p (0 : Fin 1)) :=
  Cert.Columns.broadcastTo_a1_ab_apply x broadcasts_S5000x1_S5000x128 p q

/-- The entry the first edge region stores at `(p, q)` of its block is the message entry of the block's rows. -/
theorem edge_entry0 (a b : Vec Ideal S5000x128 .f32) (n : Vec Ideal S5000x1 .f32) (w1 : Vec Ideal S128x128 .f32)
    (c1 : Vec Ideal S128 .f32) (w2 : Vec Ideal S128x128 .f32) (c2 : Vec Ideal S128 .f32) (p : Fin 5000) (q : Fin 128) :
    k0_pay1 (F := Ideal) a b n w1 w2 c1 c2 (ix2 p q) = Cert.Spec.msgAt a b n w1 c1 w2 c2 p q := by
  unfold k0_pay1 Cert.Spec.msgAt
  simp only [shapeCast_self, mulf_apply, addf_apply, rows_times, bias_rows, col_cols, truncf_apply]

/-- The same for the second edge region. -/
theorem edge_entry1 (a b : Vec Ideal S5000x128 .f32) (n : Vec Ideal S5000x1 .f32) (w1 : Vec Ideal S128x128 .f32)
    (c1 : Vec Ideal S128 .f32) (w2 : Vec Ideal S128x128 .f32) (c2 : Vec Ideal S128 .f32) (p : Fin 5000) (q : Fin 128) :
    k1_pay1 (F := Ideal) a b n w1 w2 c1 c2 (ix2 p q) = Cert.Spec.msgAt a b n w1 c1 w2 c2 p q := by
  unfold k1_pay1 Cert.Spec.msgAt
  simp only [shapeCast_self, mulf_apply, addf_apply, rows_times, bias_rows, col_cols, truncf_apply]

end Cert.KernelIdeal.Hand

end
-- ==== Proof.Edge0.lean ====
/-
  The array edge region 0 leaves, as one function of the arrays it finds.

  The region walks 100 blocks of 5000 edges. Point `t` reads rows `5000 t … 5000 t + 4999` of the source features,
  of the destination features and of the weights, and the whole of the two matrices and biases, and writes back the
  same rows of the result. A message entry reads only its own row, so what a point writes is those rows of the
  message array of the whole operands, and the 100 blocks cover every row: the array ends as the message array.
-/
import proofs.«124240_j52201032516155_2_alg».proof.Proof.Gen.KernelIdeal.Frame
import proofs.«124240_j52201032516155_2_alg».proof.Proof.EdgePay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand.E0

open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Where each window's block sits at point `t`: the three edge-indexed inputs and the output at block row `t`, the
    matrices and biases at their one block. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The source rows of point `t`: entry `(p, k)` of the block is entry `(5000 t + p, k)` of the array. -/
theorem blk_a (c : Dev nD) (t : Fin cfg0.N) (x : S5000x128.Idx) (i : S500000x128.Idx)
    (h0 : (i 0).val = t.val * 5000 + (x 0).val) (h1 : (i 1).val = (x 1).val) :
    (iblk0 V c 0 t : Vec Ideal S5000x128 .f32) x = (V c main_v6 : S500000x128.Idx → EReal) i := by
  obtain ⟨e0, e1, -⟩ := idx t
  unfold iblk0
  rw [View.read_apply]
  show V c main_v6 _ = V c main_v6 _
  congr 1
  funext a
  apply Fin.ext
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- The destination rows of point `t`. -/
theorem blk_b (c : Dev nD) (t : Fin cfg0.N) (x : S5000x128.Idx) (i : S500000x128.Idx)
    (h0 : (i 0).val = t.val * 5000 + (x 0).val) (h1 : (i 1).val = (x 1).val) :
    (iblk0 V c 1 t : Vec Ideal S5000x128 .f32) x = (V c main_v13 : S500000x128.Idx → EReal) i := by
  obtain ⟨-, -, e0, e1, -⟩ := idx t
  unfold iblk0
  rw [View.read_apply]
  show V c main_v13 _ = V c main_v13 _
  congr 1
  funext a
  apply Fin.ext
  match a with
  | ⟨0, _⟩ => show win0_1.index t (0 : Fin 2) * 5000 + 1 * (x 0).val = (i 0).val; rw [e0, h0]; omega
  | ⟨1, _⟩ => show win0_1.index t (1 : Fin 2) * 128 + 1 * (x 1).val = (i 1).val; rw [e1, h1]; omega

/-- The weights of point `t`'s edges. -/
theorem blk_n (c : Dev nD) (t : Fin cfg0.N) (x : S5000x1.Idx) (i : S500000x1.Idx)
    (h0 : (i 0).val = t.val * 5000 + (x 0).val) (h1 : (i 1).val = (x 1).val) :
    (iblk0 V c 2 t : Vec Ideal S5000x1 .f32) x = (V c main_arg6 : S500000x1.Idx → EReal) i := by
  obtain ⟨-, -, -, -, e0, e1, -⟩ := idx t
  unfold iblk0
  rw [View.read_apply]
  show V c main_arg6 _ = V c main_arg6 _
  congr 1
  funext a
  apply Fin.ext
  match a with
  | ⟨0, _⟩ => show win0_2.index t (0 : Fin 2) * 5000 + 1 * (x 0).val = (i 0).val; rw [e0, h0]; omega
  | ⟨1, _⟩ => show win0_2.index t (1 : Fin 2) * 1 + 1 * (x 1).val = (i 1).val; rw [e1, h1]; omega

/-- The first matrix is read whole at every point. -/
theorem blk_w1 (c : Dev nD) (t : Fin cfg0.N) : (iblk0 V c 3 t : Vec Ideal S128x128 .f32) = (V c main_arg2 : S128x128.Idx → EReal) := by
  obtain ⟨-, -, -, -, -, -, e0, e1, -⟩ := idx t
  funext x
  unfold iblk0
  rw [View.read_apply]
  show V c main_arg2 _ = V c main_arg2 x
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- The first bias is read whole at every point. -/
theorem blk_c1 (c : Dev nD) (t : Fin cfg0.N) : (iblk0 V c 4 t : Vec Ideal S128 .f32) = (V c main_arg3 : S128.Idx → EReal) := by
  obtain ⟨-, -, -, -, -, -, -, -, e0, -⟩ := idx t
  funext x
  unfold iblk0
  rw [View.read_apply]
  show V c main_arg3 _ = V c main_arg3 x
  congr 1
  funext a
  apply Fin.ext
  match a with
  | ⟨0, _⟩ => show win0_4.index t (0 : Fin 1) * 128 + 1 * (x 0).val = (x 0).val; rw [e0]; omega

/-- The second matrix is read whole at every point. -/
theorem blk_w2 (c : Dev nD) (t : Fin cfg0.N) : (iblk0 V c 5 t : Vec Ideal S128x128 .f32) = (V c main_arg4 : S128x128.Idx → EReal) := by
  obtain ⟨-, -, -, -, -, -, -, -, -, e0, e1, -⟩ := idx t
  funext x
  unfold iblk0
  rw [View.read_apply]
  show V c main_arg4 _ = V c main_arg4 x
  congr 1
  funext a
  apply Fin.ext
  match a with
  | ⟨0, _⟩ => show win0_5.index t (0 : Fin 2) * 128 + 1 * (x 0).val = (x 0).val; rw [e0]; omega
  | ⟨1, _⟩ => show win0_5.index t (1 : Fin 2) * 128 + 1 * (x 1).val = (x 1).val; rw [e1]; omega

/-- The second bias is read whole at every point. -/
theorem blk_c2 (c : Dev nD) (t : Fin cfg0.N) : (iblk0 V c 6 t : Vec Ideal S128 .f32) = (V c main_arg5 : S128.Idx → EReal) := by
  obtain ⟨-, -, -, -, -, -, -, -, -, -, -, e0, -⟩ := idx t
  funext x
  unfold iblk0
  rw [View.read_apply]
  show V c main_arg5 _ = V c main_arg5 x
  congr 1
  funext a
  apply Fin.ext
  match a with
  | ⟨0, _⟩ => show win0_6.index t (0 : Fin 1) * 128 + 1 * (x 0).val = (x 0).val; rw [e0]; omega

/-- The message array of the arrays the region finds. -/
def G (c : Dev nD) : S500000x128.Idx → EReal :=
  Cert.Spec.msg (V c main_v6 : S500000x128.Idx → EReal) (V c main_v13 : S500000x128.Idx → EReal) (V c main_arg6 : S500000x1.Idx → EReal)
    (V c main_arg2 : S128x128.Idx → EReal) (V c main_arg3 : S128.Idx → EReal) (V c main_arg4 : S128x128.Idx → EReal) (V c main_arg5 : S128.Idx → EReal)

/-- One entry of what a point stores, against the same entry of the message array: the block's rows are the
    arrays' rows `5000 t + p`. -/
theorem point (a b : Vec Ideal S5000x128 .f32) (n : Vec Ideal S5000x1 .f32) (w1 : Vec Ideal S128x128 .f32) (c1 : Vec Ideal S128 .f32)
    (w2 : Vec Ideal S128x128 .f32) (c2 : Vec Ideal S128 .f32)
    (A B : S500000x128.Idx → EReal) (N : S500000x1.Idx → EReal) (t : ℕ)
    (ha : ∀ (x : S5000x128.Idx) (i : S500000x128.Idx), (i 0).val = t * 5000 + (x 0).val → (i 1).val = (x 1).val → a x = A i)
    (hb : ∀ (x : S5000x128.Idx) (i : S500000x128.Idx), (i 0).val = t * 5000 + (x 0).val → (i 1).val = (x 1).val → b x = B i)
    (hn : ∀ (x : S5000x1.Idx) (i : S500000x1.Idx), (i 0).val = t * 5000 + (x 0).val → (i 1).val = (x 1).val → n x = N i)
    (y : S5000x128.Idx) (i : S500000x128.Idx) (h0 : (i 0).val = t * 5000 + (y 0).val) (h1 : (i 1).val = (y 1).val) :
    k0_pay1 (F := Ideal) a b n w1 w2 c1 c2 y = Cert.Spec.msg A B N w1 c1 w2 c2 i := by
  obtain ⟨p, q, rfl⟩ : ∃ (p : Fin 5000) (q : Fin 128), y = ix2 p q := ⟨y 0, y 1, eq_ix2 y⟩
  obtain ⟨r, j, rfl⟩ : ∃ (r : Fin 500000) (j : Fin 128), i = ix2 r j := ⟨i 0, i 1, eq_ix2 i⟩
  have hr : r.val = t * 5000 + p.val := h0
  have hj : j = q := Fin.ext h1
  subst hj
  rw [edge_entry0]
  show _ = Cert.Spec.msgAt A B N w1 c1 w2 c2 r j
  exact Cert.Spec.msgAt_rows a b n A B N w1 c1 w2 c2 p r j
    (fun k => ha (ix2 p k) (ix2 r k) hr rfl) (fun k => hb (ix2 p k) (ix2 r k) hr rfl)
    (hn (ix2 p (0 : Fin 1)) (ix2 r (0 : Fin 1)) hr rfl)

/-- What point `t` writes back is block `t` of the message array. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz2]
  simp only [View.ld_unit_zero (S := S5000x128) hz2, View.ld_unit_zero (S := S5000x1) hz2, View.ld_unit_zero (S := S128x128) hz2,
    View.ld_unit_zero (S := S128) hz1]
  rw [blk_w1 V c t, blk_c1 V c t, blk_w2 V c t, blk_c2 V c t]
  obtain ⟨-, -, -, -, -, -, -, -, -, -, -, -, e0, e1⟩ := idx t
  funext y
  refine point _ _ _ _ _ _ _ _ _ _ t.val (fun x i h0 h1 => blk_a V c t x i h0 h1) (fun x i h0 h1 => blk_b V c t x i h0 h1)
    (fun x i h0 h1 => blk_n V c t x i h0 h1) y _ ?_ ?_
  · show win0_7.index t (0 : Fin 2) * 5000 + 1 * (y 0).val = t.val * 5000 + (y 0).val; rw [e0]; omega
  · show win0_7.index t (1 : Fin 2) * 128 + 1 * (y 1).val = (y 1).val; rw [e1]; omega

/-- An index of the result array is in point `t`'s block iff each coordinate is in the block's range on its axis. -/
theorem mem_blk (t : Fin cfg0.N) (i : S500000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v28).slice (win0_7.rect t)).set ↔ _
  rw [View.set_slice_whole, Rect.mem_set_unit]
  exact Iff.rfl

/-- The array after the region: the message array of the arrays it found. Row `r` lies in the block of point `r / 5000`. -/
theorem final (c : Dev nD) : (dat0 V c).arrAt 7 cfg0.N = G V c :=
  (dat0 V c).arrAt_eq_of_cover 7 (G V c) (fun t _ => flushed_eq V c t) fun i => by
    have hi0 : (i 0).val < 500000 := (i 0).isLt
    have hi1 : (i 1).val < 128 := (i 1).isLt
    have hN : cfg0.N = 100 := N_0
    let t : Fin cfg0.N := ⟨(i 0).val / 5000, by rw [hN]; omega⟩
    obtain ⟨-, -, -, -, -, -, -, -, -, -, -, -, e0, e1⟩ := idx t
    refine ⟨t, flush0_7 t, ?_⟩
    rw [mem_blk]
    intro a
    match a with
    | ⟨0, _⟩ =>
      show win0_7.index t (0 : Fin 2) * 5000 ≤ (i 0).val ∧ (i 0).val < win0_7.index t (0 : Fin 2) * 5000 + 5000
      rw [e0]; show (i 0).val / 5000 * 5000 ≤ (i 0).val ∧ (i 0).val < (i 0).val / 5000 * 5000 + 5000; omega
    | ⟨1, _⟩ =>
      show win0_7.index t (1 : Fin 2) * 128 ≤ (i 1).val ∧ (i 1).val < win0_7.index t (1 : Fin 2) * 128 + 128
      rw [e1]; omega

end Cert.KernelIdeal.Hand.E0

end
-- ==== Proof.Edge1.lean ====
/-
  The array edge region 1 leaves, as one function of the arrays it finds.

  The region walks 100 blocks of 5000 edges. Point `t` reads rows `5000 t … 5000 t + 4999` of the source features,
  of the destination features and of the weights, and the whole of the two matrices and biases, and writes back the
  same rows of the result. A message entry reads only its own row, so what a point writes is those rows of the
  message array of the whole operands, and the 100 blocks cover every row: the array ends as the message array.
-/
import proofs.«124240_j52201032516155_2_alg».proof.Proof.Gen.KernelIdeal.Frame
import proofs.«124240_j52201032516155_2_alg».proof.Proof.EdgePay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand.E1

open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Where each window's block sits at point `t`: the three edge-indexed inputs and the output at block row `t`, the
    matrices and biases at their one block. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- The source rows of point `t`: entry `(p, k)` of the block is entry `(5000 t + p, k)` of the array. -/
theorem blk_a (c : Dev nD) (t : Fin cfg1.N) (x : S5000x128.Idx) (i : S500000x128.Idx)
    (h0 : (i 0).val = t.val * 5000 + (x 0).val) (h1 : (i 1).val = (x 1).val) :
    (iblk1 V c 0 t : Vec Ideal S5000x128 .f32) x = (V c main_v20 : S500000x128.Idx → EReal) i := by
  obtain ⟨e0, e1, -⟩ := idx t
  unfold iblk1
  rw [View.read_apply]
  show V c main_v20 _ = V c main_v20 _
  congr 1
  funext a
  apply Fin.ext
  match a with
  | ⟨0, _⟩ => show win1_0.index t (0 : Fin 2) * 5000 + 1 * (x 0).val = (i 0).val; rw [e0, h0]; omega
  | ⟨1, _⟩ => show win1_0.index t (1 : Fin 2) * 128 + 1 * (x 1).val = (i 1).val; rw [e1, h1]; omega

/-- The destination rows of point `t`. -/
theorem blk_b (c : Dev nD) (t : Fin cfg1.N) (x : S5000x128.Idx) (i : S500000x128.Idx)
    (h0 : (i 0).val = t.val * 5000 + (x 0).val) (h1 : (i 1).val = (x 1).val) :
    (iblk1 V c 1 t : Vec Ideal S5000x128 .f32) x = (V c main_v27 : S500000x128.Idx → EReal) i := by
  obtain ⟨-, -, e0, e1, -⟩ := idx t
  unfold iblk1
  rw [View.read_apply]
  show V c main_v27 _ = V c main_v27 _
  congr 1
  funext a
  apply Fin.ext
  match a with
  | ⟨0, _⟩ => show win1_1.index t (0 : Fin 2) * 5000 + 1 * (x 0).val = (i 0).val; rw [e0, h0]; omega
  | ⟨1, _⟩ => show win1_1.index t (1 : Fin 2) * 128 + 1 * (x 1).val = (i 1).val; rw [e1, h1]; omega

/-- The weights of point `t`'s edges. -/
theorem blk_n (c : Dev nD) (t : Fin cfg1.N) (x : S5000x1.Idx) (i : S500000x1.Idx)
    (h0 : (i 0).val = t.val * 5000 + (x 0).val) (h1 : (i 1).val = (x 1).val) :
    (iblk1 V c 2 t : Vec Ideal S5000x1 .f32) x = (V c main_arg7 : S500000x1.Idx → EReal) i := by
  obtain ⟨-, -, -, -, e0, e1, -⟩ := idx t
  unfold iblk1
  rw [View.read_apply]
  show V c main_arg7 _ = V c main_arg7 _
  congr 1
  funext a
  apply Fin.ext
  match a with
  | ⟨0, _⟩ => show win1_2.index t (0 : Fin 2) * 5000 + 1 * (x 0).val = (i 0).val; rw [e0, h0]; omega
  | ⟨1, _⟩ => show win1_2.index t (1 : Fin 2) * 1 + 1 * (x 1).val = (i 1).val; rw [e1, h1]; omega

/-- The first matrix is read whole at every point. -/
theorem blk_w1 (c : Dev nD) (t : Fin cfg1.N) : (iblk1 V c 3 t : Vec Ideal S128x128 .f32) = (V c main_arg2 : S128x128.Idx → EReal) := by
  obtain ⟨-, -, -, -, -, -, e0, e1, -⟩ := idx t
  funext x
  unfold iblk1
  rw [View.read_apply]
  show V c main_arg2 _ = V c main_arg2 x
  congr 1
  funext a
  apply Fin.ext
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- The first bias is read whole at every point. -/
theorem blk_c1 (c : Dev nD) (t : Fin cfg1.N) : (iblk1 V c 4 t : Vec Ideal S128 .f32) = (V c main_arg3 : S128.Idx → EReal) := by
  obtain ⟨-, -, -, -, -, -, -, -, e0, -⟩ := idx t
  funext x
  unfold iblk1
  rw [View.read_apply]
  show V c main_arg3 _ = V c main_arg3 x
  congr 1
  funext a
  apply Fin.ext
  match a with
  | ⟨0, _⟩ => show win1_4.index t (0 : Fin 1) * 128 + 1 * (x 0).val = (x 0).val; rw [e0]; omega

/-- The second matrix is read whole at every point. -/
theorem blk_w2 (c : Dev nD) (t : Fin cfg1.N) : (iblk1 V c 5 t : Vec Ideal S128x128 .f32) = (V c main_arg4 : S128x128.Idx → EReal) := by
  obtain ⟨-, -, -, -, -, -, -, -, -, e0, e1, -⟩ := idx t
  funext x
  unfold iblk1
  rw [View.read_apply]
  show V c main_arg4 _ = V c main_arg4 x
  congr 1
  funext a
  apply Fin.ext
  match a with
  | ⟨0, _⟩ => show win1_5.index t (0 : Fin 2) * 128 + 1 * (x 0).val = (x 0).val; rw [e0]; omega
  | ⟨1, _⟩ => show win1_5.index t (1 : Fin 2) * 128 + 1 * (x 1).val = (x 1).val; rw [e1]; omega

/-- The second bias is read whole at every point. -/
theorem blk_c2 (c : Dev nD) (t : Fin cfg1.N) : (iblk1 V c 6 t : Vec Ideal S128 .f32) = (V c main_arg5 : S128.Idx → EReal) := by
  obtain ⟨-, -, -, -, -, -, -, -, -, -, -, e0, -⟩ := idx t
  funext x
  unfold iblk1
  rw [View.read_apply]
  show V c main_arg5 _ = V c main_arg5 x
  congr 1
  funext a
  apply Fin.ext
  match a with
  | ⟨0, _⟩ => show win1_6.index t (0 : Fin 1) * 128 + 1 * (x 0).val = (x 0).val; rw [e0]; omega

/-- The message array of the arrays the region finds. -/
def G (c : Dev nD) : S500000x128.Idx → EReal :=
  Cert.Spec.msg (V c main_v20 : S500000x128.Idx → EReal) (V c main_v27 : S500000x128.Idx → EReal) (V c main_arg7 : S500000x1.Idx → EReal)
    (V c main_arg2 : S128x128.Idx → EReal) (V c main_arg3 : S128.Idx → EReal) (V c main_arg4 : S128x128.Idx → EReal) (V c main_arg5 : S128.Idx → EReal)

/-- One entry of what a point stores, against the same entry of the message array: the block's rows are the
    arrays' rows `5000 t + p`. -/
theorem point (a b : Vec Ideal S5000x128 .f32) (n : Vec Ideal S5000x1 .f32) (w1 : Vec Ideal S128x128 .f32) (c1 : Vec Ideal S128 .f32)
    (w2 : Vec Ideal S128x128 .f32) (c2 : Vec Ideal S128 .f32)
    (A B : S500000x128.Idx → EReal) (N : S500000x1.Idx → EReal) (t : ℕ)
    (ha : ∀ (x : S5000x128.Idx) (i : S500000x128.Idx), (i 0).val = t * 5000 + (x 0).val → (i 1).val = (x 1).val → a x = A i)
    (hb : ∀ (x : S5000x128.Idx) (i : S500000x128.Idx), (i 0).val = t * 5000 + (x 0).val → (i 1).val = (x 1).val → b x = B i)
    (hn : ∀ (x : S5000x1.Idx) (i : S500000x1.Idx), (i 0).val = t * 5000 + (x 0).val → (i 1).val = (x 1).val → n x = N i)
    (y : S5000x128.Idx) (i : S500000x128.Idx) (h0 : (i 0).val = t * 5000 + (y 0).val) (h1 : (i 1).val = (y 1).val) :
    k1_pay1 (F := Ideal) a b n w1 w2 c1 c2 y = Cert.Spec.msg A B N w1 c1 w2 c2 i := by
  obtain ⟨p, q, rfl⟩ : ∃ (p : Fin 5000) (q : Fin 128), y = ix2 p q := ⟨y 0, y 1, eq_ix2 y⟩
  obtain ⟨r, j, rfl⟩ : ∃ (r : Fin 500000) (j : Fin 128), i = ix2 r j := ⟨i 0, i 1, eq_ix2 i⟩
  have hr : r.val = t * 5000 + p.val := h0
  have hj : j = q := Fin.ext h1
  subst hj
  rw [edge_entry1]
  show _ = Cert.Spec.msgAt A B N w1 c1 w2 c2 r j
  exact Cert.Spec.msgAt_rows a b n A B N w1 c1 w2 c2 p r j
    (fun k => ha (ix2 p k) (ix2 r k) hr rfl) (fun k => hb (ix2 p k) (ix2 r k) hr rfl)
    (hn (ix2 p (0 : Fin 1)) (ix2 r (0 : Fin 1)) hr rfl)

/-- What point `t` writes back is block `t` of the message array. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S5000x1) hz2, View.ld_unit_zero (S := S128x128) hz2,
    View.ld_unit_zero (S := S128) hz1]
  rw [blk_w1 V c t, blk_c1 V c t, blk_w2 V c t, blk_c2 V c t]
  obtain ⟨-, -, -, -, -, -, -, -, -, -, -, -, e0, e1⟩ := idx t
  funext y
  refine point _ _ _ _ _ _ _ _ _ _ t.val (fun x i h0 h1 => blk_a V c t x i h0 h1) (fun x i h0 h1 => blk_b V c t x i h0 h1)
    (fun x i h0 h1 => blk_n V c t x i h0 h1) y _ ?_ ?_
  · show win1_7.index t (0 : Fin 2) * 5000 + 1 * (y 0).val = t.val * 5000 + (y 0).val; rw [e0]; omega
  · show win1_7.index t (1 : Fin 2) * 128 + 1 * (y 1).val = (y 1).val; rw [e1]; omega

/-- An index of the result array is in point `t`'s block iff each coordinate is in the block's range on its axis. -/
theorem mem_blk (t : Fin cfg1.N) (i : S500000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v29).slice (win1_7.rect t)).set ↔ _
  rw [View.set_slice_whole, Rect.mem_set_unit]
  exact Iff.rfl

/-- The array after the region: the message array of the arrays it found. Row `r` lies in the block of point `r / 5000`. -/
theorem final (c : Dev nD) : (dat1 V c).arrAt 7 cfg1.N = G V c :=
  (dat1 V c).arrAt_eq_of_cover 7 (G V c) (fun t _ => flushed_eq V c t) fun i => by
    have hi0 : (i 0).val < 500000 := (i 0).isLt
    have hi1 : (i 1).val < 128 := (i 1).isLt
    have hN : cfg1.N = 100 := N_1
    let t : Fin cfg1.N := ⟨(i 0).val / 5000, by rw [hN]; omega⟩
    obtain ⟨-, -, -, -, -, -, -, -, -, -, -, -, e0, e1⟩ := idx t
    refine ⟨t, flush1_7 t, ?_⟩
    rw [mem_blk]
    intro a
    match a with
    | ⟨0, _⟩ =>
      show win1_7.index t (0 : Fin 2) * 5000 ≤ (i 0).val ∧ (i 0).val < win1_7.index t (0 : Fin 2) * 5000 + 5000
      rw [e0]; show (i 0).val / 5000 * 5000 ≤ (i 0).val ∧ (i 0).val < (i 0).val / 5000 * 5000 + 5000; omega
    | ⟨1, _⟩ =>
      show win1_7.index t (1 : Fin 2) * 128 ≤ (i 1).val ∧ (i 1).val < win1_7.index t (1 : Fin 2) * 128 + 128
      rw [e1]; omega

end Cert.KernelIdeal.Hand.E1

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«124240_j52201032516155_2_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.FinPay.lean ====
/-
  The finishing kernel's arithmetic on one block of 5000 nodes, read at an entry.

  A block holds 5000 rows of the nodes' own features `x` and of the arriving sums `s`, beside the 128 × 128 matrix
  and the bias. Entry `(p, q)` before the slope is `x_p · w + c` at column `q` plus `s (p, q)`; the comparison with
  zero chooses the entry itself or the slope times it; the squares of a row are added along the row, the root of the
  sum is floored by the tiny constant and laid along the row, and the sloped entry is divided by it. So the entry the
  kernel stores at `(p, q)` is the finished entry of the specification, computed from the block's own rows.
-/
import proofs.«124240_j52201032516155_2_alg».proof.Proof.Gen.KernelIdeal.Skeleton
import proofs.«124240_j52201032516155_2_alg».proof.Proof.Spec
import proofs.«124240_j52201032516155_2_alg».proof.Proof.EdgePay
import proofs.«124240_j52201032516155_2_alg».proof.Proof.LibRowSum

noncomputable section

namespace Cert.KernelIdeal.Hand

open Idealize.ShloMosaic Idealize.ShloMosaic.ValueIdx Cert.KernelIdeal Cert.KernelIdeal.Gen

/-- Choosing by the truth of a proposition, written as a one-bit word, is choosing by the proposition. -/
theorem select_decide {α : Type} (P : Prop) [Decidable P] (a b : α) :
    Scalar.select (BitVec.ofBool (decide P)) a b = if P then a else b := by
  unfold Scalar.select
  by_cases h : P
  · rw [if_pos h, decide_eq_true h]; exact if_pos rfl
  · rw [if_neg h, decide_eq_false h]; exact if_neg (by decide)

/-- The squares of a block's row added along the row: at row `p` the sum over the row's 128 entries. -/
theorem row_sum (src : FVec Ideal S5000x128 .f32) (hφ : FTy.f32 = FTy.f32 ∨ FTy.f32 = FTy.bf16) (hacc : (0x00000000#32 : BitVec 32) = 0x00000000#32)
    (p : Fin 5000) :
    multiReduction .add [1] S5000 src 0x00000000#32 reduces_S5000x128_S5000 hφ hacc (ix1 p) = ∑ k : Fin 128, src (ix2 p k) :=
  Cert.RowSum.multiReduction_add_row src 0x00000000#32 reduces_S5000x128_S5000 hφ hacc p

/-- A vector of 5000 row results written as a column reads, at `(p, 0)`, its entry `p`. -/
theorem rows_col (x : FVec Ideal S5000 .f32) (p : Fin 5000) :
    shapeCast S5000x1 x shapeCasts_S5000_S5000x1 (ix2 p (0 : Fin 1)) = x (ix1 p) :=
  Cert.Columns.shapeCast_a_a1_apply x shapeCasts_S5000_S5000x1 p 0

/-- The root of a column, entry by entry. -/
theorem sqrt_col (x : FVec Ideal S5000x1 .f32) (i : S5000x1.Idx) : Idealize.ShloMosaic.sqrt x i = Ideal.sqrt (x i) := rfl

/-- The comparison `0 < h` chooses `h`, and otherwise the slope times `h`: the specification's sloped entry. -/
theorem sloped (h : EReal) :
    Scalar.select (FloatOps.cmpf (F := Ideal) (φ := .f32) .ogt h (FloatOps.ofBits (F := Ideal) .f32 0x00000000#32)) h
      ((FloatOps.ofBits (F := Ideal) .f32 0x3E4CCCCD#32 : EReal) * h) = Cert.Spec.leaky h := by
  rw [Ideal.cmpf_def]
  show Scalar.select (BitVec.ofBool (decide (Ideal.ofBits .f32 0x00000000#32 < h))) h _ = _
  rw [select_decide, Ideal.ofBits_zero_f32]
  rfl

/-- The entry region 2 stores at `(p, q)` of its block is the finished entry of the block's rows. -/
theorem fin_entry2 (x : Vec Ideal S5000x128 .f32) (w : Vec Ideal S128x128 .f32) (c : Vec Ideal S128 .f32)
    (s : Vec Ideal S5000x128 .f32) (p : Fin 5000) (q : Fin 128) :
    k2_pay1 (F := Ideal) x w c s (ix2 p q) = Cert.Spec.finAt x w c s p q := by
  unfold k2_pay1 Cert.Spec.finAt Cert.Spec.preAt
  simp only [shapeCast_self, divf_apply, col_cols, maximumf_apply, broadcast_apply, sqrt_col, rows_col]
  rw [row_sum]
  simp only [mulf_apply, select_apply, cmpf_apply, addf_apply, rows_times, bias_rows, truncf_apply, broadcast_apply, sloped]
  rfl

/-- The same for region 3. -/
theorem fin_entry3 (x : Vec Ideal S5000x128 .f32) (w : Vec Ideal S128x128 .f32) (c : Vec Ideal S128 .f32)
    (s : Vec Ideal S5000x128 .f32) (p : Fin 5000) (q : Fin 128) :
    k3_pay1 (F := Ideal) x w c s (ix2 p q) = Cert.Spec.finAt x w c s p q := by
  unfold k3_pay1 Cert.Spec.finAt Cert.Spec.preAt
  simp only [shapeCast_self, divf_apply, col_cols, maximumf_apply, broadcast_apply, sqrt_col, rows_col]
  rw [row_sum]
  simp only [mulf_apply, select_apply, cmpf_apply, addf_apply, rows_times, bias_rows, truncf_apply, broadcast_apply, sloped]
  rfl

end Cert.KernelIdeal.Hand

end
-- ==== Proof.Fin2.lean ====
/-
  The array finishing region 2 leaves, as one function of the arrays it finds.

  The region walks 20 blocks of 5000 nodes. Point `t` reads rows `5000 t … 5000 t + 4999` of the nodes' own features
  and of the arriving sums, and the whole of the matrix and the bias, and writes back the same rows of the result. A
  finished entry reads only its own row (its row's length included), so what a point writes is those rows of the finished
  array of the whole operands, and the 20 blocks cover every row: the array ends as the finished array.
-/
import proofs.«124240_j52201032516155_2_alg».proof.Proof.Gen.KernelIdeal.Frame
import proofs.«124240_j52201032516155_2_alg».proof.Proof.FinPay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand.F2

open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Where each window's block sits at point `t`: the two node-indexed inputs and the output at block row `t`, the
    matrix and the bias at their one block. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The nodes' own rows of point `t`: entry `(p, k)` of the block is entry `(5000 t + p, k)` of the array. -/
theorem blk_x (c : Dev nD) (t : Fin cfg2.N) (x : S5000x128.Idx) (i : S100000x128.Idx)
    (h0 : (i 0).val = t.val * 5000 + (x 0).val) (h1 : (i 1).val = (x 1).val) :
    (iblk2 V c 0 t : Vec Ideal S5000x128 .f32) x = (V c main_arg0 : S100000x128.Idx → EReal) i := by
  obtain ⟨e0, e1, -⟩ := idx t
  unfold iblk2
  rw [View.read_apply]
  show V c main_arg0 _ = V c main_arg0 _
  congr 1
  funext a
  apply Fin.ext
  match a with
  | ⟨0, _⟩ => show win2_0.index t (0 : Fin 2) * 5000 + 1 * (x 0).val = (i 0).val; rw [e0, h0]; omega
  | ⟨1, _⟩ => show win2_0.index t (1 : Fin 2) * 128 + 1 * (x 1).val = (i 1).val; rw [e1, h1]; omega

/-- The arriving sums of point `t`'s nodes. -/
theorem blk_s (c : Dev nD) (t : Fin cfg2.N) (x : S5000x128.Idx) (i : S100000x128.Idx)
    (h0 : (i 0).val = t.val * 5000 + (x 0).val) (h1 : (i 1).val = (x 1).val) :
    (iblk2 V c 3 t : Vec Ideal S5000x128 .f32) x = (V c main_v35 : S100000x128.Idx → EReal) i := by
  obtain ⟨-, -, -, -, -, e0, e1, -⟩ := idx t
  unfold iblk2
  rw [View.read_apply]
  show V c main_v35 _ = V c main_v35 _
  congr 1
  funext a
  apply Fin.ext
  match a with
  | ⟨0, _⟩ => show win2_3.index t (0 : Fin 2) * 5000 + 1 * (x 0).val = (i 0).val; rw [e0, h0]; omega
  | ⟨1, _⟩ => show win2_3.index t (1 : Fin 2) * 128 + 1 * (x 1).val = (i 1).val; rw [e1, h1]; omega

/-- The matrix is read whole at every point. -/
theorem blk_w (c : Dev nD) (t : Fin cfg2.N) : (iblk2 V c 1 t : Vec Ideal S128x128 .f32) = (V c main_arg2 : S128x128.Idx → EReal) := by
  obtain ⟨-, -, e0, e1, -⟩ := idx t
  funext x
  unfold iblk2
  rw [View.read_apply]
  show V c main_arg2 _ = V c main_arg2 x
  congr 1
  funext a
  apply Fin.ext
  match a with
  | ⟨0, _⟩ => show win2_1.index t (0 : Fin 2) * 128 + 1 * (x 0).val = (x 0).val; rw [e0]; omega
  | ⟨1, _⟩ => show win2_1.index t (1 : Fin 2) * 128 + 1 * (x 1).val = (x 1).val; rw [e1]; omega

/-- The bias is read whole at every point. -/
theorem blk_c (c : Dev nD) (t : Fin cfg2.N) : (iblk2 V c 2 t : Vec Ideal S128 .f32) = (V c main_arg3 : S128.Idx → EReal) := by
  obtain ⟨-, -, -, -, e0, -⟩ := idx t
  funext x
  unfold iblk2
  rw [View.read_apply]
  show V c main_arg3 _ = V c main_arg3 x
  congr 1
  funext a
  apply Fin.ext
  match a with
  | ⟨0, _⟩ => show win2_2.index t (0 : Fin 1) * 128 + 1 * (x 0).val = (x 0).val; rw [e0]; omega

/-- The finished array of the arrays the region finds. -/
def G (c : Dev nD) : S100000x128.Idx → EReal :=
  Cert.Spec.fin (V c main_arg0 : S100000x128.Idx → EReal) (V c main_arg2 : S128x128.Idx → EReal) (V c main_arg3 : S128.Idx → EReal)
    (V c main_v35 : S100000x128.Idx → EReal)

/-- One entry of what a point stores, against the same entry of the finished array: the block's rows are the
    arrays' rows `5000 t + p`. -/
theorem point (x s : Vec Ideal S5000x128 .f32) (w : Vec Ideal S128x128 .f32) (c1 : Vec Ideal S128 .f32)
    (X S : S100000x128.Idx → EReal) (t : ℕ)
    (hx : ∀ (y : S5000x128.Idx) (i : S100000x128.Idx), (i 0).val = t * 5000 + (y 0).val → (i 1).val = (y 1).val → x y = X i)
    (hs : ∀ (y : S5000x128.Idx) (i : S100000x128.Idx), (i 0).val = t * 5000 + (y 0).val → (i 1).val = (y 1).val → s y = S i)
    (y : S5000x128.Idx) (i : S100000x128.Idx) (h0 : (i 0).val = t * 5000 + (y 0).val) (h1 : (i 1).val = (y 1).val) :
    k2_pay1 (F := Ideal) x w c1 s y = Cert.Spec.fin X w c1 S i := by
  obtain ⟨p, q, rfl⟩ : ∃ (p : Fin 5000) (q : Fin 128), y = ix2 p q := ⟨y 0, y 1, eq_ix2 y⟩
  obtain ⟨r, j, rfl⟩ : ∃ (r : Fin 100000) (j : Fin 128), i = ix2 r j := ⟨i 0, i 1, eq_ix2 i⟩
  have hr : r.val = t * 5000 + p.val := h0
  have hj : j = q := Fin.ext h1
  subst hj
  rw [fin_entry2]
  show _ = Cert.Spec.finAt X w c1 S r j
  exact Cert.Spec.finAt_rows x s X S w c1 p r j
    (fun k => hx (ix2 p k) (ix2 r k) hr rfl) (fun k => hs (ix2 p k) (ix2 r k) hr rfl)

/-- What point `t` writes back is block `t` of the finished array. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S128x128) hz2, View.ld_unit_zero (S := S128) hz1]
  rw [blk_w V c t, blk_c V c t]
  obtain ⟨-, -, -, -, -, -, -, e0, e1⟩ := idx t
  funext y
  refine point _ _ _ _ _ _ t.val (fun x i h0 h1 => blk_x V c t x i h0 h1) (fun x i h0 h1 => blk_s V c t x i h0 h1) y _ ?_ ?_
  · show win2_4.index t (0 : Fin 2) * 5000 + 1 * (y 0).val = t.val * 5000 + (y 0).val; rw [e0]; omega
  · show win2_4.index t (1 : Fin 2) * 128 + 1 * (y 1).val = (y 1).val; rw [e1]; omega

/-- An index of the result array is in point `t`'s block iff each coordinate is in the block's range on its axis. -/
theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v36).slice (win2_4.rect t)).set ↔ _
  rw [View.set_slice_whole, Rect.mem_set_unit]
  exact Iff.rfl

/-- The array after the region: the finished array of the arrays it found. Row `r` lies in the block of point `r / 5000`. -/
theorem final (c : Dev nD) : (dat2 V c).arrAt 4 cfg2.N = G V c :=
  (dat2 V c).arrAt_eq_of_cover 4 (G V c) (fun t _ => flushed_eq V c t) fun i => by
    have hi0 : (i 0).val < 100000 := (i 0).isLt
    have hi1 : (i 1).val < 128 := (i 1).isLt
    have hN : cfg2.N = 20 := N_2
    let t : Fin cfg2.N := ⟨(i 0).val / 5000, by rw [hN]; omega⟩
    obtain ⟨-, -, -, -, -, -, -, e0, e1⟩ := idx t
    refine ⟨t, flush2_4 t, ?_⟩
    rw [mem_blk]
    intro a
    match a with
    | ⟨0, _⟩ =>
      show win2_4.index t (0 : Fin 2) * 5000 ≤ (i 0).val ∧ (i 0).val < win2_4.index t (0 : Fin 2) * 5000 + 5000
      rw [e0]; show (i 0).val / 5000 * 5000 ≤ (i 0).val ∧ (i 0).val < (i 0).val / 5000 * 5000 + 5000; omega
    | ⟨1, _⟩ =>
      show win2_4.index t (1 : Fin 2) * 128 ≤ (i 1).val ∧ (i 1).val < win2_4.index t (1 : Fin 2) * 128 + 128
      rw [e1]; omega

end Cert.KernelIdeal.Hand.F2

end
-- ==== Proof.Fin3.lean ====
/-
  The array finishing region 3 leaves, as one function of the arrays it finds.

  The region walks 10 blocks of 5000 nodes. Point `t` reads rows `5000 t … 5000 t + 4999` of the nodes' own features
  and of the arriving sums, and the whole of the matrix and the bias, and writes back the same rows of the result. A
  finished entry reads only its own row (its row's length included), so what a point writes is those rows of the finished
  array of the whole operands, and the 10 blocks cover every row: the array ends as the finished array.
-/
import proofs.«124240_j52201032516155_2_alg».proof.Proof.Gen.KernelIdeal.Frame
import proofs.«124240_j52201032516155_2_alg».proof.Proof.FinPay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand.F3

open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Where each window's block sits at point `t`: the two node-indexed inputs and the output at block row `t`, the
    matrix and the bias at their one block. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The nodes' own rows of point `t`: entry `(p, k)` of the block is entry `(5000 t + p, k)` of the array. -/
theorem blk_x (c : Dev nD) (t : Fin cfg3.N) (x : S5000x128.Idx) (i : S50000x128.Idx)
    (h0 : (i 0).val = t.val * 5000 + (x 0).val) (h1 : (i 1).val = (x 1).val) :
    (iblk3 V c 0 t : Vec Ideal S5000x128 .f32) x = (V c main_arg1 : S50000x128.Idx → EReal) i := by
  obtain ⟨e0, e1, -⟩ := idx t
  unfold iblk3
  rw [View.read_apply]
  show V c main_arg1 _ = V c main_arg1 _
  congr 1
  funext a
  apply Fin.ext
  match a with
  | ⟨0, _⟩ => show win3_0.index t (0 : Fin 2) * 5000 + 1 * (x 0).val = (i 0).val; rw [e0, h0]; omega
  | ⟨1, _⟩ => show win3_0.index t (1 : Fin 2) * 128 + 1 * (x 1).val = (i 1).val; rw [e1, h1]; omega

/-- The arriving sums of point `t`'s nodes. -/
theorem blk_s (c : Dev nD) (t : Fin cfg3.N) (x : S5000x128.Idx) (i : S50000x128.Idx)
    (h0 : (i 0).val = t.val * 5000 + (x 0).val) (h1 : (i 1).val = (x 1).val) :
    (iblk3 V c 3 t : Vec Ideal S5000x128 .f32) x = (V c main_v32 : S50000x128.Idx → EReal) i := by
  obtain ⟨-, -, -, -, -, e0, e1, -⟩ := idx t
  unfold iblk3
  rw [View.read_apply]
  show V c main_v32 _ = V c main_v32 _
  congr 1
  funext a
  apply Fin.ext
  match a with
  | ⟨0, _⟩ => show win3_3.index t (0 : Fin 2) * 5000 + 1 * (x 0).val = (i 0).val; rw [e0, h0]; omega
  | ⟨1, _⟩ => show win3_3.index t (1 : Fin 2) * 128 + 1 * (x 1).val = (i 1).val; rw [e1, h1]; omega

/-- The matrix is read whole at every point. -/
theorem blk_w (c : Dev nD) (t : Fin cfg3.N) : (iblk3 V c 1 t : Vec Ideal S128x128 .f32) = (V c main_arg2 : S128x128.Idx → EReal) := by
  obtain ⟨-, -, e0, e1, -⟩ := idx t
  funext x
  unfold iblk3
  rw [View.read_apply]
  show V c main_arg2 _ = V c main_arg2 x
  congr 1
  funext a
  apply Fin.ext
  match a with
  | ⟨0, _⟩ => show win3_1.index t (0 : Fin 2) * 128 + 1 * (x 0).val = (x 0).val; rw [e0]; omega
  | ⟨1, _⟩ => show win3_1.index t (1 : Fin 2) * 128 + 1 * (x 1).val = (x 1).val; rw [e1]; omega

/-- The bias is read whole at every point. -/
theorem blk_c (c : Dev nD) (t : Fin cfg3.N) : (iblk3 V c 2 t : Vec Ideal S128 .f32) = (V c main_arg3 : S128.Idx → EReal) := by
  obtain ⟨-, -, -, -, e0, -⟩ := idx t
  funext x
  unfold iblk3
  rw [View.read_apply]
  show V c main_arg3 _ = V c main_arg3 x
  congr 1
  funext a
  apply Fin.ext
  match a with
  | ⟨0, _⟩ => show win3_2.index t (0 : Fin 1) * 128 + 1 * (x 0).val = (x 0).val; rw [e0]; omega

/-- The finished array of the arrays the region finds. -/
def G (c : Dev nD) : S50000x128.Idx → EReal :=
  Cert.Spec.fin (V c main_arg1 : S50000x128.Idx → EReal) (V c main_arg2 : S128x128.Idx → EReal) (V c main_arg3 : S128.Idx → EReal)
    (V c main_v32 : S50000x128.Idx → EReal)

/-- One entry of what a point stores, against the same entry of the finished array: the block's rows are the
    arrays' rows `5000 t + p`. -/
theorem point (x s : Vec Ideal S5000x128 .f32) (w : Vec Ideal S128x128 .f32) (c1 : Vec Ideal S128 .f32)
    (X S : S50000x128.Idx → EReal) (t : ℕ)
    (hx : ∀ (y : S5000x128.Idx) (i : S50000x128.Idx), (i 0).val = t * 5000 + (y 0).val → (i 1).val = (y 1).val → x y = X i)
    (hs : ∀ (y : S5000x128.Idx) (i : S50000x128.Idx), (i 0).val = t * 5000 + (y 0).val → (i 1).val = (y 1).val → s y = S i)
    (y : S5000x128.Idx) (i : S50000x128.Idx) (h0 : (i 0).val = t * 5000 + (y 0).val) (h1 : (i 1).val = (y 1).val) :
    k3_pay1 (F := Ideal) x w c1 s y = Cert.Spec.fin X w c1 S i := by
  obtain ⟨p, q, rfl⟩ : ∃ (p : Fin 5000) (q : Fin 128), y = ix2 p q := ⟨y 0, y 1, eq_ix2 y⟩
  obtain ⟨r, j, rfl⟩ : ∃ (r : Fin 50000) (j : Fin 128), i = ix2 r j := ⟨i 0, i 1, eq_ix2 i⟩
  have hr : r.val = t * 5000 + p.val := h0
  have hj : j = q := Fin.ext h1
  subst hj
  rw [fin_entry3]
  show _ = Cert.Spec.finAt X w c1 S r j
  exact Cert.Spec.finAt_rows x s X S w c1 p r j
    (fun k => hx (ix2 p k) (ix2 r k) hr rfl) (fun k => hs (ix2 p k) (ix2 r k) hr rfl)

/-- What point `t` writes back is block `t` of the finished array. -/
theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  unfold out3_4
  rw [View.canon_unit_zero hz2]
  simp only [View.ld_unit_zero (S := S5000x128) hz2, View.ld_unit_zero (S := S128x128) hz2, View.ld_unit_zero (S := S128) hz1]
  rw [blk_w V c t, blk_c V c t]
  obtain ⟨-, -, -, -, -, -, -, e0, e1⟩ := idx t
  funext y
  refine point _ _ _ _ _ _ t.val (fun x i h0 h1 => blk_x V c t x i h0 h1) (fun x i h0 h1 => blk_s V c t x i h0 h1) y _ ?_ ?_
  · show win3_4.index t (0 : Fin 2) * 5000 + 1 * (y 0).val = t.val * 5000 + (y 0).val; rw [e0]; omega
  · show win3_4.index t (1 : Fin 2) * 128 + 1 * (y 1).val = (y 1).val; rw [e1]; omega

/-- An index of the result array is in point `t`'s block iff each coordinate is in the block's range on its axis. -/
theorem mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v37).slice (win3_4.rect t)).set ↔ _
  rw [View.set_slice_whole, Rect.mem_set_unit]
  exact Iff.rfl

/-- The array after the region: the finished array of the arrays it found. Row `r` lies in the block of point `r / 5000`. -/
theorem final (c : Dev nD) : (dat3 V c).arrAt 4 cfg3.N = G V c :=
  (dat3 V c).arrAt_eq_of_cover 4 (G V c) (fun t _ => flushed_eq V c t) fun i => by
    have hi0 : (i 0).val < 50000 := (i 0).isLt
    have hi1 : (i 1).val < 128 := (i 1).isLt
    have hN : cfg3.N = 10 := N_3
    let t : Fin cfg3.N := ⟨(i 0).val / 5000, by rw [hN]; omega⟩
    obtain ⟨-, -, -, -, -, -, -, e0, e1⟩ := idx t
    refine ⟨t, flush3_4 t, ?_⟩
    rw [mem_blk]
    intro a
    match a with
    | ⟨0, _⟩ =>
      show win3_4.index t (0 : Fin 2) * 5000 ≤ (i 0).val ∧ (i 0).val < win3_4.index t (0 : Fin 2) * 5000 + 5000
      rw [e0]; show (i 0).val / 5000 * 5000 ≤ (i 0).val ∧ (i 0).val < (i 0).val / 5000 * 5000 + 5000; omega
    | ⟨1, _⟩ =>
      show win3_4.index t (1 : Fin 2) * 128 ≤ (i 1).val ∧ (i 1).val < win3_4.index t (1 : Fin 2) * 128 + 128
      rw [e1]; omega

end Cert.KernelIdeal.Hand.F3

end
-- ==== Proof.KValue.lean ====
/-
  The two results of the kernel program as functions of its twelve arguments.

  The program gathers feature rows by edge index, runs the edge kernel over each of the two edge lists, adds the
  messages into zeros at their destination rows, and runs the finishing kernel over the users and over the items.
  Each region leaves the specification's array of the arrays it finds (the four region modules); between the regions
  the host operations gather and scatter, and nothing else touches the arguments (the boundary module). Read from
  the end of the run backwards, the user result is the finished array of the users' features and of the sum of the
  item-to-user messages, and the item result the finished array of the items' features and of the sum of the
  user-to-item messages, the messages being those of the gathered rows.
-/
import proofs.«124240_j52201032516155_2_alg».proof.Proof.KRun
import proofs.«124240_j52201032516155_2_alg».proof.Proof.KBound
import proofs.«124240_j52201032516155_2_alg».proof.Proof.Edge0
import proofs.«124240_j52201032516155_2_alg».proof.Proof.Edge1
import proofs.«124240_j52201032516155_2_alg».proof.Proof.Fin2
import proofs.«124240_j52201032516155_2_alg».proof.Proof.Fin3

noncomputable section

open Idealize.ShloMosaic Idealize.ShloMosaic.TcCoe Idealize.SL.Sem

namespace Cert.KernelIdeal.KValue

open Cert.KernelIdeal Cert.KernelIdeal.Gen Cert.KernelIdeal.KBound Cert.KernelIdeal.Hand
open Facts₀

/-- The users' new rows: their own features, and the sum over the item-to-user edges of the messages of the
    gathered item rows (sources) and user rows (destinations). -/
def outUser (a0 : FVec Ideal S100000x128 .f32) (a1 : FVec Ideal S50000x128 .f32) (a2 : FVec Ideal S128x128 .f32)
    (a3 : FVec Ideal S128 .f32) (a4 : FVec Ideal S128x128 .f32) (a5 : FVec Ideal S128 .f32)
    (a7 : FVec Ideal S500000x1 .f32) (a10 a11 : IVec S500000 32) : FVec Ideal S100000x128 .f32 :=
  Cert.Spec.fin a0 a2 a3
    (scatU a11 (Cert.Spec.msg (Host.gather gather_S50000x128_S500000x1_S500000x128_1_0_n_n_0_1_1128 a1 (wrapCol 50000#32 a10)) (Host.gather gather_S100000x128_S500000x1_S500000x128_1_0_n_n_0_1_1128 a0 (wrapCol 100000#32 a11))
      a7 a2 a3 a4 a5))

/-- The items' new rows: their own features, and the sum over the user-to-item edges of the messages of the
    gathered user rows (sources) and item rows (destinations). -/
def outItem (a0 : FVec Ideal S100000x128 .f32) (a1 : FVec Ideal S50000x128 .f32) (a2 : FVec Ideal S128x128 .f32)
    (a3 : FVec Ideal S128 .f32) (a4 : FVec Ideal S128x128 .f32) (a5 : FVec Ideal S128 .f32)
    (a6 : FVec Ideal S500000x1 .f32) (a8 a9 : IVec S500000 32) : FVec Ideal S50000x128 .f32 :=
  Cert.Spec.fin a1 a2 a3
    (scatI a9 (Cert.Spec.msg (Host.gather gather_S100000x128_S500000x1_S500000x128_1_0_n_n_0_1_1128 a0 (wrapCol 100000#32 a8)) (Host.gather gather_S50000x128_S500000x1_S500000x128_1_0_n_n_0_1_1128 a1 (wrapCol 50000#32 a9))
      a6 a2 a3 a4 a5))

variable (m : (ℓ : Loc nD τ sig) → Buf (Elt Ideal) ℓ) (ρ : Dev nD → PrngReg)

/-- The user result at the end of the run. -/
theorem user_eq (c : Dev nD) : W6 m ρ c (Proc.devRef .tc main_v36)
    = outUser (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg10)) (m ((c.tc : Thread nD τ).loc main_arg11)) := by
  rw [W6_v36, F2.final]
  unfold F2.G
  rw [V4_arg0, V4_arg2, V4_arg3, V4_v35, E1.final]
  unfold E1.G
  rw [V2_v20, V2_v27, V2_arg7, V2_arg2, V2_arg3, V2_arg4, V2_arg5]
  rfl

/-- The item result at the end of the run. -/
theorem item_eq (c : Dev nD) : W6 m ρ c (Proc.devRef .tc main_v37)
    = outItem (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) := by
  rw [W6_v37, F3.final]
  unfold F3.G
  rw [V5_arg1, V5_arg2, V5_arg3, V5_v32, E0.final]
  unfold E0.G
  rw [V1_v6, V1_v13, V1_arg6, V1_arg2, V1_arg3, V1_arg4, V1_arg5]
  rfl

/-- The run of the kernel program: it ends with the two results at `outUser` and `outItem` of the arguments, and the
    arguments as they were. -/
theorem run : θ_run (defs (F := Ideal)) (onTc (τ := τ) (main (F := Ideal))) ⟨m, fun _ => 0, ρ⟩ (fun r => ∀ c : Dev nD,
      r.2.mem ((c.tc : Thread nD τ).loc main_v36) = outUser (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg10)) (m ((c.tc : Thread nD τ).loc main_arg11))
      ∧ r.2.mem ((c.tc : Thread nD τ).loc main_v37) = outItem (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono
    (fun r h c => ⟨(h c).1.trans (user_eq m ρ c), (h c).2.1.trans (item_eq m ρ c), (h c).2.2⟩)
    (Cert.KernelIdeal.KRun.run_results m ρ)

end Cert.KernelIdeal.KValue

end
-- ==== Proof.RefOps.lean ====
/-
  The reference program as a list of operations.

  The program's entry function is a straight line of host operations, four of them calls of outlined functions
  (the slope on a positive-or-not test, and a row's Euclidean length, once for each kind of node). A call runs the
  callee's operations on the caller's buffers, so the whole program is one list: the sixty operations of the
  entry function's first window, then the thirty-one own operations of its second window with the callees'
  twenty-four operations at the four call sites (seven for each slope, its inner selection included; five for
  each length). The entry function equals the run of that list, the list touches only tensor buffers, and the
  contents after two lists in a row are the contents after the second from those after the first.
-/
import proofs.«124240_j52201032516155_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's first sixty operations: the nodes' own rows through the first linear map, the wrapped
    index columns, three of the four gathers, the user-to-item messages and their sums at the item nodes. -/
abbrev ops0 : List (HloOp τ sig (Elt F)) :=
  [ StableHlo.binary main_arg0 main_arg2 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S100000x128 ![0, 1] bcast_S1x128_S100000x128_0_1 : (⟨S1x128, .f32⟩ : BufTy).Contents (Elt F) → (⟨S100000x128, .f32⟩ : BufTy).Contents (Elt F)),
    StableHlo.binary main_v0 main_v2 main_v3 (addf : (⟨S100000x128, .f32⟩ : BufTy).Contents (Elt F) → (⟨S100000x128, .f32⟩ : BufTy).Contents (Elt F) → (⟨S100000x128, .f32⟩ : BufTy).Contents (Elt F)),
    StableHlo.binary main_arg1 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v8 (broadcastInDim S500000 ![] bcast_S_S500000 : (⟨S_, .i32⟩ : BufTy).Contents (Elt F) → (⟨S500000, .i32⟩ : BufTy).Contents (Elt F)),
    StableHlo.binary main_arg8 main_v8 main_v9 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 100000#32),
    StableHlo.unary main_c_0 main_v10 (broadcastInDim S500000 ![] bcast_S_S500000 : (⟨S_, .i32⟩ : BufTy).Contents (Elt F) → (⟨S500000, .i32⟩ : BufTy).Contents (Elt F)),
    StableHlo.binary main_arg8 main_v10 main_v11 (addi : (⟨S500000, .i32⟩ : BufTy).Contents (Elt F) → (⟨S500000, .i32⟩ : BufTy).Contents (Elt F) → (⟨S500000, .i32⟩ : BufTy).Contents (Elt F)),
    StableHlo.ternary main_v9 main_v11 main_arg8 main_v12 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v12 main_v13 (broadcastInDim S500000x1 ![0] bcast_S500000_S500000x1_0 : (⟨S500000, .i32⟩ : BufTy).Contents (Elt F) → (⟨S500000x1, .i32⟩ : BufTy).Contents (Elt F)),
    StableHlo.binary main_arg0 main_v13 main_v14 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.nullary main_c_1 (constantI S_ 32 0#32),
    StableHlo.unary main_c_1 main_v15 (broadcastInDim S500000 ![] bcast_S_S500000 : (⟨S_, .i32⟩ : BufTy).Contents (Elt F) → (⟨S500000, .i32⟩ : BufTy).Contents (Elt F)),
    StableHlo.binary main_arg9 main_v15 main_v16 (cmpi .slt : (⟨S500000, .i32⟩ : BufTy).Contents (Elt F) → (⟨S500000, .i32⟩ : BufTy).Contents (Elt F) → (⟨S500000, .i1⟩ : BufTy).Contents (Elt F)),
    StableHlo.nullary main_c_2 (constantI S_ 32 50000#32),
    StableHlo.unary main_c_2 main_v17 (broadcastInDim S500000 ![] bcast_S_S500000 : (⟨S_, .i32⟩ : BufTy).Contents (Elt F) → (⟨S500000, .i32⟩ : BufTy).Contents (Elt F)),
    StableHlo.binary main_arg9 main_v17 main_v18 (addi : (⟨S500000, .i32⟩ : BufTy).Contents (Elt F) → (⟨S500000, .i32⟩ : BufTy).Contents (Elt F) → (⟨S500000, .i32⟩ : BufTy).Contents (Elt F)),
    StableHlo.ternary main_v16 main_v18 main_arg9 main_v19 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v19 main_v20 (broadcastInDim S500000x1 ![0] bcast_S500000_S500000x1_0 : (⟨S500000, .i32⟩ : BufTy).Contents (Elt F) → (⟨S500000x1, .i32⟩ : BufTy).Contents (Elt F)),
    StableHlo.binary main_arg1 main_v20 main_v21 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.binary main_v14 main_arg2 main_v22 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg3 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S500000x128 ![0, 1] bcast_S1x128_S500000x128_0_1 : (⟨S1x128, .f32⟩ : BufTy).Contents (Elt F) → (⟨S500000x128, .f32⟩ : BufTy).Contents (Elt F)),
    StableHlo.binary main_v22 main_v24 main_v25 (addf : (⟨S500000x128, .f32⟩ : BufTy).Contents (Elt F) → (⟨S500000x128, .f32⟩ : BufTy).Contents (Elt F) → (⟨S500000x128, .f32⟩ : BufTy).Contents (Elt F)),
    StableHlo.binary main_v14 main_v21 main_v26 (mulf : (⟨S500000x128, .f32⟩ : BufTy).Contents (Elt F) → (⟨S500000x128, .f32⟩ : BufTy).Contents (Elt F) → (⟨S500000x128, .f32⟩ : BufTy).Contents (Elt F)),
    StableHlo.binary main_v26 main_arg4 main_v27 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg5 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S500000x128 ![0, 1] bcast_S1x128_S500000x128_0_1 : (⟨S1x128, .f32⟩ : BufTy).Contents (Elt F) → (⟨S500000x128, .f32⟩ : BufTy).Contents (Elt F)),
    StableHlo.binary main_v27 main_v29 main_v30 (addf : (⟨S500000x128, .f32⟩ : BufTy).Contents (Elt F) → (⟨S500000x128, .f32⟩ : BufTy).Contents (Elt F) → (⟨S500000x128, .f32⟩ : BufTy).Contents (Elt F)),
    StableHlo.binary main_v25 main_v30 main_v31 (addf : (⟨S500000x128, .f32⟩ : BufTy).Contents (Elt F) → (⟨S500000x128, .f32⟩ : BufTy).Contents (Elt F) → (⟨S500000x128, .f32⟩ : BufTy).Contents (Elt F)),
    StableHlo.unary main_arg6 main_v32 (broadcastInDim S500000x128 ![0, 1] bcast_S500000x1_S500000x128_0_1 : (⟨S500000x1, .f32⟩ : BufTy).Contents (Elt F) → (⟨S500000x128, .f32⟩ : BufTy).Contents (Elt F)),
    StableHlo.binary main_v32 main_v31 main_v33 (mulf : (⟨S500000x128, .f32⟩ : BufTy).Contents (Elt F) → (⟨S500000x128, .f32⟩ : BufTy).Contents (Elt F) → (⟨S500000x128, .f32⟩ : BufTy).Contents (Elt F)),
    StableHlo.nullary main_cst (constant S_ .f32 0x00000000#32),
    StableHlo.unary main_cst main_v34 (broadcastInDim S50000x128 ![] bcast_S_S50000x128 : (⟨S_, .f32⟩ : BufTy).Contents (Elt F) → (⟨S50000x128, .f32⟩ : BufTy).Contents (Elt F)),
    StableHlo.unary main_arg9 main_v35 (broadcastInDim S500000x1 ![0] bcast_S500000_S500000x1_0 : (⟨S500000, .i32⟩ : BufTy).Contents (Elt F) → (⟨S500000x1, .i32⟩ : BufTy).Contents (Elt F)),
    StableHlo.ternary main_v34 main_v35 main_v33 main_v36 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    StableHlo.binary main_v7 main_v36 main_v37 (addf : (⟨S50000x128, .f32⟩ : BufTy).Contents (Elt F) → (⟨S50000x128, .f32⟩ : BufTy).Contents (Elt F) → (⟨S50000x128, .f32⟩ : BufTy).Contents (Elt F)),
    StableHlo.nullary main_c_3 (constantI S_ 32 0#32),
    StableHlo.unary main_c_3 main_v38 (broadcastInDim S500000 ![] bcast_S_S500000 : (⟨S_, .i32⟩ : BufTy).Contents (Elt F) → (⟨S500000, .i32⟩ : BufTy).Contents (Elt F)),
    StableHlo.binary main_arg10 main_v38 main_v39 (cmpi .slt : (⟨S500000, .i32⟩ : BufTy).Contents (Elt F) → (⟨S500000, .i32⟩ : BufTy).Contents (Elt F) → (⟨S500000, .i1⟩ : BufTy).Contents (Elt F)),
    StableHlo.nullary main_c_4 (constantI S_ 32 50000#32),
    StableHlo.unary main_c_4 main_v40 (broadcastInDim S500000 ![] bcast_S_S500000 : (⟨S_, .i32⟩ : BufTy).Contents (Elt F) → (⟨S500000, .i32⟩ : BufTy).Contents (Elt F)),
    StableHlo.binary main_arg10 main_v40 main_v41 (addi : (⟨S500000, .i32⟩ : BufTy).Contents (Elt F) → (⟨S500000, .i32⟩ : BufTy).Contents (Elt F) → (⟨S500000, .i32⟩ : BufTy).Contents (Elt F)),
    StableHlo.ternary main_v39 main_v41 main_arg10 main_v42 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v42 main_v43 (broadcastInDim S500000x1 ![0] bcast_S500000_S500000x1_0 : (⟨S500000, .i32⟩ : BufTy).Contents (Elt F) → (⟨S500000x1, .i32⟩ : BufTy).Contents (Elt F)),
    StableHlo.binary main_arg1 main_v43 main_v44 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.nullary main_c_5 (constantI S_ 32 0#32),
    StableHlo.unary main_c_5 main_v45 (broadcastInDim S500000 ![] bcast_S_S500000 : (⟨S_, .i32⟩ : BufTy).Contents (Elt F) → (⟨S500000, .i32⟩ : BufTy).Contents (Elt F)),
    StableHlo.binary main_arg11 main_v45 main_v46 (cmpi .slt : (⟨S500000, .i32⟩ : BufTy).Contents (Elt F) → (⟨S500000, .i32⟩ : BufTy).Contents (Elt F) → (⟨S500000, .i1⟩ : BufTy).Contents (Elt F)),
    StableHlo.nullary main_c_6 (constantI S_ 32 100000#32),
    StableHlo.unary main_c_6 main_v47 (broadcastInDim S500000 ![] bcast_S_S500000 : (⟨S_, .i32⟩ : BufTy).Contents (Elt F) → (⟨S500000, .i32⟩ : BufTy).Contents (Elt F)),
    StableHlo.binary main_arg11 main_v47 main_v48 (addi : (⟨S500000, .i32⟩ : BufTy).Contents (Elt F) → (⟨S500000, .i32⟩ : BufTy).Contents (Elt F) → (⟨S500000, .i32⟩ : BufTy).Contents (Elt F)),
    StableHlo.ternary main_v46 main_v48 main_arg11 main_v49 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v49 main_v50 (broadcastInDim S500000x1 ![0] bcast_S500000_S500000x1_0 : (⟨S500000, .i32⟩ : BufTy).Contents (Elt F) → (⟨S500000x1, .i32⟩ : BufTy).Contents (Elt F)) ]

/-- The rest: the fourth gather, the item-to-user messages and their sums at the user nodes, then for each kind
    of node the slope, the row lengths and the division, the outlined functions' operations in place. -/
abbrev ops1 : List (HloOp τ sig (Elt F)) :=
  [ StableHlo.binary main_arg0 main_v50 main_v51 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.binary main_v44 main_arg2 main_v52 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg3 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S500000x128 ![0, 1] bcast_S1x128_S500000x128_0_1 : (⟨S1x128, .f32⟩ : BufTy).Contents (Elt F) → (⟨S500000x128, .f32⟩ : BufTy).Contents (Elt F)),
    StableHlo.binary main_v52 main_v54 main_v55 (addf : (⟨S500000x128, .f32⟩ : BufTy).Contents (Elt F) → (⟨S500000x128, .f32⟩ : BufTy).Contents (Elt F) → (⟨S500000x128, .f32⟩ : BufTy).Contents (Elt F)),
    StableHlo.binary main_v44 main_v51 main_v56 (mulf : (⟨S500000x128, .f32⟩ : BufTy).Contents (Elt F) → (⟨S500000x128, .f32⟩ : BufTy).Contents (Elt F) → (⟨S500000x128, .f32⟩ : BufTy).Contents (Elt F)),
    StableHlo.binary main_v56 main_arg4 main_v57 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg5 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S500000x128 ![0, 1] bcast_S1x128_S500000x128_0_1 : (⟨S1x128, .f32⟩ : BufTy).Contents (Elt F) → (⟨S500000x128, .f32⟩ : BufTy).Contents (Elt F)),
    StableHlo.binary main_v57 main_v59 main_v60 (addf : (⟨S500000x128, .f32⟩ : BufTy).Contents (Elt F) → (⟨S500000x128, .f32⟩ : BufTy).Contents (Elt F) → (⟨S500000x128, .f32⟩ : BufTy).Contents (Elt F)),
    StableHlo.binary main_v55 main_v60 main_v61 (addf : (⟨S500000x128, .f32⟩ : BufTy).Contents (Elt F) → (⟨S500000x128, .f32⟩ : BufTy).Contents (Elt F) → (⟨S500000x128, .f32⟩ : BufTy).Contents (Elt F)),
    StableHlo.unary main_arg7 main_v62 (broadcastInDim S500000x128 ![0, 1] bcast_S500000x1_S500000x128_0_1 : (⟨S500000x1, .f32⟩ : BufTy).Contents (Elt F) → (⟨S500000x128, .f32⟩ : BufTy).Contents (Elt F)),
    StableHlo.binary main_v62 main_v61 main_v63 (mulf : (⟨S500000x128, .f32⟩ : BufTy).Contents (Elt F) → (⟨S500000x128, .f32⟩ : BufTy).Contents (Elt F) → (⟨S500000x128, .f32⟩ : BufTy).Contents (Elt F)),
    StableHlo.nullary main_cst_7 (constant S_ .f32 0x00000000#32),
    StableHlo.unary main_cst_7 main_v64 (broadcastInDim S100000x128 ![] bcast_S_S100000x128 : (⟨S_, .f32⟩ : BufTy).Contents (Elt F) → (⟨S100000x128, .f32⟩ : BufTy).Contents (Elt F)),
    StableHlo.unary main_arg11 main_v65 (broadcastInDim S500000x1 ![0] bcast_S500000_S500000x1_0 : (⟨S500000, .i32⟩ : BufTy).Contents (Elt F) → (⟨S500000x1, .i32⟩ : BufTy).Contents (Elt F)),
    StableHlo.ternary main_v64 main_v65 main_v63 main_v66 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.binary main_v3 main_v66 main_v67 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3E4CCCCD#32),
    TRef.nullary main_call0.cst (constant S_ .f32 0x00000000#32),
    TRef.unary main_call0.cst main_call0.v0 (broadcastInDim S100000x128 ![] bcast_S_S100000x128),
    TRef.binary (.of main_v67 : TRef sig ⟨S100000x128, .f32⟩) main_call0.v0 main_call0.v1 (cmpf .oge),
    TRef.unary (.of main_cst_8 : TRef sig ⟨S_, .f32⟩) main_call0.v2 id,
    TRef.unary main_call0.v2 main_call0.v3 (broadcastInDim S100000x128 ![] bcast_S_S100000x128),
    TRef.binary main_call0.v3 (.of main_v67 : TRef sig ⟨S100000x128, .f32⟩) main_call0.v4 mulf,
    TRef.ternary main_call0.v1 (.of main_v67 : TRef sig ⟨S100000x128, .f32⟩) main_call0.v4 main_call0.call0.v0 select,
    TRef.binary (.of main_v68 : TRef sig ⟨S100000x128, .f32⟩) (.of main_v68 : TRef sig ⟨S100000x128, .f32⟩) main_call1.v0 mulf,
    TRef.nullary main_call1.cst (constant S_ .f32 0x00000000#32),
    TRef.binary main_call1.v0 main_call1.cst main_call1.v1 (fun x v => Host.reduceAdd x v reducesTo_S100000x128_S100000_d1 h_S_),
    TRef.unary main_call1.v1 main_call1.v2 (broadcastInDim S100000x1 ![0] bcast_S100000_S100000x1_0),
    TRef.unary main_call1.v2 main_call1.v3 Host.sqrt,
    StableHlo.nullary main_cst_9 (constant S_ .f32 0x2B8CBCCC#32),
    StableHlo.unary main_cst_9 main_v70 (broadcastInDim S100000x1 ![] bcast_S_S100000x1 : (⟨S_, .f32⟩ : BufTy).Contents (Elt F) → (⟨S100000x1, .f32⟩ : BufTy).Contents (Elt F)),
    StableHlo.binary main_v69 main_v70 main_v71 (maximumf : (⟨S100000x1, .f32⟩ : BufTy).Contents (Elt F) → (⟨S100000x1, .f32⟩ : BufTy).Contents (Elt F) → (⟨S100000x1, .f32⟩ : BufTy).Contents (Elt F)),
    StableHlo.unary main_v71 main_v72 (broadcastInDim S100000x128 ![0, 1] bcast_S100000x1_S100000x128_0_1 : (⟨S100000x1, .f32⟩ : BufTy).Contents (Elt F) → (⟨S100000x128, .f32⟩ : BufTy).Contents (Elt F)),
    StableHlo.binary main_v68 main_v72 main_v73 (Host.divf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3E4CCCCD#32),
    TRef.nullary main_call2.cst (constant S_ .f32 0x00000000#32),
    TRef.unary main_call2.cst main_call2.v0 (broadcastInDim S50000x128 ![] bcast_S_S50000x128),
    TRef.binary (.of main_v37 : TRef sig ⟨S50000x128, .f32⟩) main_call2.v0 main_call2.v1 (cmpf .oge),
    TRef.unary (.of main_cst_10 : TRef sig ⟨S_, .f32⟩) main_call2.v2 id,
    TRef.unary main_call2.v2 main_call2.v3 (broadcastInDim S50000x128 ![] bcast_S_S50000x128),
    TRef.binary main_call2.v3 (.of main_v37 : TRef sig ⟨S50000x128, .f32⟩) main_call2.v4 mulf,
    TRef.ternary main_call2.v1 (.of main_v37 : TRef sig ⟨S50000x128, .f32⟩) main_call2.v4 main_call2.call0.v0 select,
    TRef.binary (.of main_v74 : TRef sig ⟨S50000x128, .f32⟩) (.of main_v74 : TRef sig ⟨S50000x128, .f32⟩) main_call3.v0 mulf,
    TRef.nullary main_call3.cst (constant S_ .f32 0x00000000#32),
    TRef.binary main_call3.v0 main_call3.cst main_call3.v1 (fun x v => Host.reduceAdd x v reducesTo_S50000x128_S50000_d1 h_S_),
    TRef.unary main_call3.v1 main_call3.v2 (broadcastInDim S50000x1 ![0] bcast_S50000_S50000x1_0),
    TRef.unary main_call3.v2 main_call3.v3 Host.sqrt,
    StableHlo.nullary main_cst_11 (constant S_ .f32 0x2B8CBCCC#32),
    StableHlo.unary main_cst_11 main_v76 (broadcastInDim S50000x1 ![] bcast_S_S50000x1 : (⟨S_, .f32⟩ : BufTy).Contents (Elt F) → (⟨S50000x1, .f32⟩ : BufTy).Contents (Elt F)),
    StableHlo.binary main_v75 main_v76 main_v77 (maximumf : (⟨S50000x1, .f32⟩ : BufTy).Contents (Elt F) → (⟨S50000x1, .f32⟩ : BufTy).Contents (Elt F) → (⟨S50000x1, .f32⟩ : BufTy).Contents (Elt F)),
    StableHlo.unary main_v77 main_v78 (broadcastInDim S50000x128 ![0, 1] bcast_S50000x1_S50000x128_0_1 : (⟨S50000x1, .f32⟩ : BufTy).Contents (Elt F) → (⟨S50000x128, .f32⟩ : BufTy).Contents (Elt F)),
    StableHlo.binary main_v74 main_v78 main_v79 (Host.divf : (⟨S50000x128, .f32⟩ : BufTy).Contents (Elt F) → (⟨S50000x128, .f32⟩ : BufTy).Contents (Elt F) → (⟨S50000x128, .f32⟩ : BufTy).Contents (Elt F)) ]

/-- All the operations, in order. -/
abbrev ops : List (HloOp τ sig (Elt F)) := ops0 ++ ops1

set_option maxRecDepth 8192 in
set_option maxHeartbeats 4000000 in
/-- The first window is the run of its list. -/
theorem main_part0_eq (c : Dev nD) : main_part0 (F := F) c = seq ops0 := rfl

set_option maxRecDepth 8192 in
set_option maxHeartbeats 4000000 in
/-- The second window is the run of its list: the callees' definitions opened at their calls, both sides are one
    chain of steps once sequencing is reassociated. -/
theorem main_part1_eq (c : Dev nD) : main_part1 (F := F) c = seq ops1 := by
  simp only [main_part1, fn_leaky_relu.body, fn_where.body, fn_norm.body, fn_leaky_relu_0.body, fn_where_1.body,
    fn_norm_2.body, seq, bind_assoc, pure_bind]

/-- The entry function is the run of the whole list. -/
theorem main_eq (c : Dev nD) : main (F := F) c = seq ops :=
  (show main (F := F) c = (main_part0 (F := F) c >>= fun _ => main_part1 (F := F) c) from rfl).trans
    (by rw [main_part0_eq c, main_part1_eq c, ← seq_append])

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., unary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

set_option maxRecDepth 8192 in
theorem ops1_sub : (ops1 : List (HloOp τ sig (Elt F))).Forall fun op => op.bufs ⊆ tcRefs τ sig :=
  ⟨binary_bufs_sub .., binary_bufs_sub .., unary_bufs_sub .., unary_bufs_sub .., binary_bufs_sub .., binary_bufs_sub .., binary_bufs_sub .., unary_bufs_sub .., unary_bufs_sub .., binary_bufs_sub .., binary_bufs_sub .., unary_bufs_sub .., binary_bufs_sub .., nullary_bufs_sub .., unary_bufs_sub .., unary_bufs_sub .., ternary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- The contents after two lists run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.ReferenceIdeal.RefRun

end
-- ==== Proof.RefDefs.lean ====
/-
  The two results of the reference program as whole-array terms of its twelve arguments.

  The reference is one round of message passing on a bipartite graph. Each of its four index lists is first
  wrapped (a negative index has the row count added) and made a column (`wrapCol`). The messages of one edge
  list are `msgR`: with `a` the gathered source rows and `b` the gathered destination rows, the edge weight
  times `(a · w1 + c1) + ((a ∘ b) · w2 + c2)`. The messages are summed into zeros at their destination rows
  (a scatter with addition), and a node's new row is `finU` / `finI`: its own row through `w` plus `c` plus the
  arriving sum, every entry kept where it is at least zero and scaled by a fixed slope elsewhere, and the row
  divided by the larger of its Euclidean length and a tiny constant. `outU` and `outI` put these together for
  the two kinds of node. Every term keeps the order of operands of the program's own operations.
-/
import proofs.«124240_j52201032516155_2_alg».proof.Proof.Gen.ReferenceIdeal
import Idealize.ShloMosaic.PureOps.Ideal

noncomputable section

namespace Cert.ReferenceIdeal.RefRun

open Cert.ReferenceIdeal Cert.ReferenceIdeal.Gen Idealize.ShloMosaic

/-- An index list with every negative entry raised by the row count `n`, as a column. -/
def wrapCol (n : BitVec 32) (e : IVec S500000 32) : IVec S500000x1 32 :=
  broadcastInDim S500000x1 ![0] bcast_S500000_S500000x1_0
    (select (cmpi .slt e (broadcastInDim S500000 ![] bcast_S_S500000 (constantI S_ 32 0#32)))
      (addi e (broadcastInDim S500000 ![] bcast_S_S500000 (constantI S_ 32 n))) e)

/-- The messages of one edge list: the edge weight `n` times `(a · w1 + c1) + ((a ∘ b) · w2 + c2)`. -/
def msgR (a b : FVec Ideal S500000x128 .f32) (n : FVec Ideal S500000x1 .f32) (w1 : FVec Ideal S128x128 .f32)
    (c1 : FVec Ideal S128 .f32) (w2 : FVec Ideal S128x128 .f32) (c2 : FVec Ideal S128 .f32) :
    FVec Ideal S500000x128 .f32 :=
  mulf (broadcastInDim S500000x128 ![0, 1] bcast_S500000x1_S500000x128_0_1 n)
    (addf
      (addf (Host.dotGeneral (F := Ideal) dot_S500000x128_S128x128_S500000x128_1_0_0_1_n_n none a w1)
        (broadcastInDim S500000x128 ![0, 1] bcast_S1x128_S500000x128_0_1 (broadcastInDim S1x128 ![1] bcast_S128_S1x128_1 c1)))
      (addf (Host.dotGeneral (F := Ideal) dot_S500000x128_S128x128_S500000x128_1_0_0_1_n_n none (mulf a b) w2)
        (broadcastInDim S500000x128 ![0, 1] bcast_S1x128_S500000x128_0_1 (broadcastInDim S1x128 ![1] bcast_S128_S1x128_1 c2))))

/-- A user node's row before the slope: its own row through `w` plus `c`, plus the arriving sum `s`. -/
def preU (x : FVec Ideal S100000x128 .f32) (w : FVec Ideal S128x128 .f32) (c : FVec Ideal S128 .f32)
    (s : FVec Ideal S100000x128 .f32) : FVec Ideal S100000x128 .f32 :=
  addf
    (addf (Host.dotGeneral (F := Ideal) dot_S100000x128_S128x128_S100000x128_1_0_0_1_n_n none x w)
      (broadcastInDim S100000x128 ![0, 1] bcast_S1x128_S100000x128_0_1 (broadcastInDim S1x128 ![1] bcast_S128_S1x128_1 c)))
    s

/-- The slope applied to the user nodes' rows: an entry at least zero is kept, any other is scaled. -/
def slopeU (h : FVec Ideal S100000x128 .f32) : FVec Ideal S100000x128 .f32 :=
  select (cmpf .oge h (broadcastInDim S100000x128 ![] bcast_S_S100000x128 (constant (F := Ideal) S_ .f32 0x00000000#32))) h
    (mulf (broadcastInDim S100000x128 ![] bcast_S_S100000x128 (id (constant (F := Ideal) S_ .f32 0x3E4CCCCD#32))) h)

/-- Every user row divided by the larger of its Euclidean length and the tiny constant. -/
def unitU (l : FVec Ideal S100000x128 .f32) : FVec Ideal S100000x128 .f32 :=
  Host.divf (F := Ideal) l
    (broadcastInDim S100000x128 ![0, 1] bcast_S100000x1_S100000x128_0_1
      (maximumf
        (Host.sqrt (F := Ideal)
          (broadcastInDim S100000x1 ![0] bcast_S100000_S100000x1_0
            (Host.reduceAdd (F := Ideal) (mulf l l) (constant (F := Ideal) S_ .f32 0x00000000#32) reducesTo_S100000x128_S100000_d1 h_S_)))
        (broadcastInDim S100000x1 ![] bcast_S_S100000x1 (constant (F := Ideal) S_ .f32 0x2B8CBCCC#32))))

/-- The user nodes' new rows. -/
def finU (x : FVec Ideal S100000x128 .f32) (w : FVec Ideal S128x128 .f32) (c : FVec Ideal S128 .f32)
    (s : FVec Ideal S100000x128 .f32) : FVec Ideal S100000x128 .f32 :=
  unitU (slopeU (preU x w c s))

/-- An item node's row before the slope. -/
def preI (x : FVec Ideal S50000x128 .f32) (w : FVec Ideal S128x128 .f32) (c : FVec Ideal S128 .f32)
    (s : FVec Ideal S50000x128 .f32) : FVec Ideal S50000x128 .f32 :=
  addf
    (addf (Host.dotGeneral (F := Ideal) dot_S50000x128_S128x128_S50000x128_1_0_0_1_n_n none x w)
      (broadcastInDim S50000x128 ![0, 1] bcast_S1x128_S50000x128_0_1 (broadcastInDim S1x128 ![1] bcast_S128_S1x128_1 c)))
    s

/-- The slope applied to the item nodes' rows. -/
def slopeI (h : FVec Ideal S50000x128 .f32) : FVec Ideal S50000x128 .f32 :=
  select (cmpf .oge h (broadcastInDim S50000x128 ![] bcast_S_S50000x128 (constant (F := Ideal) S_ .f32 0x00000000#32))) h
    (mulf (broadcastInDim S50000x128 ![] bcast_S_S50000x128 (id (constant (F := Ideal) S_ .f32 0x3E4CCCCD#32))) h)

/-- Every item row divided by the larger of its Euclidean length and the tiny constant. -/
def unitI (l : FVec Ideal S50000x128 .f32) : FVec Ideal S50000x128 .f32 :=
  Host.divf (F := Ideal) l
    (broadcastInDim S50000x128 ![0, 1] bcast_S50000x1_S50000x128_0_1
      (maximumf
        (Host.sqrt (F := Ideal)
          (broadcastInDim S50000x1 ![0] bcast_S50000_S50000x1_0
            (Host.reduceAdd (F := Ideal) (mulf l l) (constant (F := Ideal) S_ .f32 0x00000000#32) reducesTo_S50000x128_S50000_d1 h_S_)))
        (broadcastInDim S50000x1 ![] bcast_S_S50000x1 (constant (F := Ideal) S_ .f32 0x2B8CBCCC#32))))

/-- The item nodes' new rows. -/
def finI (x : FVec Ideal S50000x128 .f32) (w : FVec Ideal S128x128 .f32) (c : FVec Ideal S128 .f32)
    (s : FVec Ideal S50000x128 .f32) : FVec Ideal S50000x128 .f32 :=
  unitI (slopeI (preI x w c s))

/-- The reference's first result: the user nodes' new rows, the arriving sums those of the item-to-user messages. -/
def outU (a0 : FVec Ideal S100000x128 .f32) (a1 : FVec Ideal S50000x128 .f32) (a2 : FVec Ideal S128x128 .f32)
    (a3 : FVec Ideal S128 .f32) (a4 : FVec Ideal S128x128 .f32) (a5 : FVec Ideal S128 .f32)
    (a7 : FVec Ideal S500000x1 .f32) (a10 a11 : IVec S500000 32) : FVec Ideal S100000x128 .f32 :=
  finU a0 a2 a3
    (Host.scatterAdd (F := Ideal) scatter_S100000x128_S500000x1_S500000x128_1_0_0_1
      (broadcastInDim S100000x128 ![] bcast_S_S100000x128 (constant (F := Ideal) S_ .f32 0x00000000#32))
      (broadcastInDim S500000x1 ![0] bcast_S500000_S500000x1_0 a11)
      (msgR (Host.gather gather_S50000x128_S500000x1_S500000x128_1_0_n_n_0_1_1128 a1 (wrapCol 50000#32 a10))
        (Host.gather gather_S100000x128_S500000x1_S500000x128_1_0_n_n_0_1_1128 a0 (wrapCol 100000#32 a11))
        a7 a2 a3 a4 a5))

/-- The reference's second result: the item nodes' new rows, the arriving sums those of the user-to-item messages. -/
def outI (a0 : FVec Ideal S100000x128 .f32) (a1 : FVec Ideal S50000x128 .f32) (a2 : FVec Ideal S128x128 .f32)
    (a3 : FVec Ideal S128 .f32) (a4 : FVec Ideal S128x128 .f32) (a5 : FVec Ideal S128 .f32)
    (a6 : FVec Ideal S500000x1 .f32) (a8 a9 : IVec S500000 32) : FVec Ideal S50000x128 .f32 :=
  finI a1 a2 a3
    (Host.scatterAdd (F := Ideal) scatter_S50000x128_S500000x1_S500000x128_1_0_0_1
      (broadcastInDim S50000x128 ![] bcast_S_S50000x128 (constant (F := Ideal) S_ .f32 0x00000000#32))
      (broadcastInDim S500000x1 ![0] bcast_S500000_S500000x1_0 a9)
      (msgR (Host.gather gather_S100000x128_S500000x1_S500000x128_1_0_n_n_0_1_1128 a0 (wrapCol 100000#32 a8))
        (Host.gather gather_S50000x128_S500000x1_S500000x128_1_0_n_n_0_1_1128 a1 (wrapCol 50000#32 a9))
        a6 a2 a3 a4 a5))

end Cert.ReferenceIdeal.RefRun

end
-- ==== Proof.LibFold.lean ====
/-
  A value stored into a typed buffer and read back is the value.

  An operation of an outlined function stores its result through a transport along its buffer's type equation, and the
  next operation reads it back through the inverse transport. Evaluating a line of such operations leaves these pairs
  nested one inside another around every intermediate value. The two transports cancel whatever the equation's proof
  is, so one rewriting pass with this fact removes them all before the value is compared with anything.
-/
import Idealize.ShloMosaic.Lib.StableHlo
import Idealize.ShloMosaic.Lib.StableHlo.Run

noncomputable section

namespace Cert.Lib.Fold

open Idealize.ShloMosaic Idealize.ShloMosaic.StableHlo

variable {sig : RefSig} {Val : EltTy → Type}

/-- A value stored into a typed buffer and read back is the value: the two transports along the buffer's type equation
    cancel. -/
theorem ofBuf_toBuf {T : BufTy} (x : TRef sig T) (v : T.Contents Val) : x.ofBuf (x.toBuf v) = v := by
  obtain ⟨r, h, hd, hu⟩ := x
  subst h
  rfl

end Cert.Lib.Fold

end
-- ==== Proof.RefWin0.lean ====
/-
  The contents after the reference's first list of operations, from any contents before it.

  Four of the buffers the list writes are read later: the user nodes' own rows through the first linear map plus the
  bias; the item nodes' rows before the slope (their own linear image plus the sums of the user-to-item messages that
  arrive at them); the item rows gathered at the wrapped sources of the item-to-user edges; and the wrapped column of
  those edges' destinations. No operation of the list writes an argument.
-/
import proofs.«124240_j52201032516155_2_alg».proof.Proof.RefOps
import proofs.«124240_j52201032516155_2_alg».proof.Proof.RefDefs
import proofs.«124240_j52201032516155_2_alg».proof.Proof.LibFold

noncomputable section

namespace Cert.ReferenceIdeal.RefRun

open Cert.ReferenceIdeal Cert.ReferenceIdeal.Gen Idealize.ShloMosaic Idealize.ShloMosaic.TcCoe Idealize.SL.Sem Idealize.ShloMosaic.StableHlo

-- the operations' functions stay closed while a list's contents are computed: the equations below never look inside them
attribute [local irreducible] Host.gather Host.scatterAdd Host.reduceAdd Host.divf Host.sqrt FloatOps.dotGeneral broadcastInDim

set_option maxRecDepth 8192 in
set_option maxHeartbeats 4000000 in
/-- The user nodes' own rows through the first linear map, plus the bias. -/
theorem win0_v3 (V : Valuation τ sig (Elt Ideal)) :
    after (ops0 (F := Ideal)) V (main_v3 : DevRef τ sig)
      = addf (Host.dotGeneral (F := Ideal) (φ₁ := .f32) (φ₂ := .f32) dot_S100000x128_S128x128_S100000x128_1_0_0_1_n_n none (V (main_arg0 : DevRef τ sig)) (V (main_arg2 : DevRef τ sig)))
          (broadcastInDim S100000x128 ![0, 1] bcast_S1x128_S100000x128_0_1 (broadcastInDim S1x128 ![1] bcast_S128_S1x128_1 (V (main_arg3 : DevRef τ sig)))) := by
  after_results_simp

set_option maxRecDepth 8192 in
set_option maxHeartbeats 4000000 in
/-- The item nodes' rows before the slope. -/
theorem win0_v37 (V : Valuation τ sig (Elt Ideal)) :
    after (ops0 (F := Ideal)) V (main_v37 : DevRef τ sig)
      = preI (V (main_arg1 : DevRef τ sig)) (V (main_arg2 : DevRef τ sig)) (V (main_arg3 : DevRef τ sig))
          (Host.scatterAdd (F := Ideal) scatter_S50000x128_S500000x1_S500000x128_1_0_0_1
            (broadcastInDim S50000x128 ![] bcast_S_S50000x128 (constant (F := Ideal) S_ .f32 0x00000000#32))
            (broadcastInDim S500000x1 ![0] bcast_S500000_S500000x1_0 (V (main_arg9 : DevRef τ sig)))
            (msgR (Host.gather gather_S100000x128_S500000x1_S500000x128_1_0_n_n_0_1_1128 (V (main_arg0 : DevRef τ sig)) (wrapCol 100000#32 (V (main_arg8 : DevRef τ sig))))
              (Host.gather gather_S50000x128_S500000x1_S500000x128_1_0_n_n_0_1_1128 (V (main_arg1 : DevRef τ sig)) (wrapCol 50000#32 (V (main_arg9 : DevRef τ sig))))
              (V (main_arg6 : DevRef τ sig)) (V (main_arg2 : DevRef τ sig)) (V (main_arg3 : DevRef τ sig)) (V (main_arg4 : DevRef τ sig)) (V (main_arg5 : DevRef τ sig)))) := by
  after_results_simp
  rfl

set_option maxRecDepth 8192 in
set_option maxHeartbeats 4000000 in
/-- The item rows gathered at the wrapped sources of the item-to-user edges. -/
theorem win0_v44 (V : Valuation τ sig (Elt Ideal)) :
    after (ops0 (F := Ideal)) V (main_v44 : DevRef τ sig)
      = Host.gather gather_S50000x128_S500000x1_S500000x128_1_0_n_n_0_1_1128 (V (main_arg1 : DevRef τ sig)) (wrapCol 50000#32 (V (main_arg10 : DevRef τ sig))) := by
  after_results_simp
  rfl

set_option maxRecDepth 8192 in
set_option maxHeartbeats 4000000 in
/-- The wrapped column of the item-to-user edges' destinations. -/
theorem win0_v50 (V : Valuation τ sig (Elt Ideal)) :
    after (ops0 (F := Ideal)) V (main_v50 : DevRef τ sig) = wrapCol 100000#32 (V (main_arg11 : DevRef τ sig)) := by
  after_results_simp
  rfl

theorem win0_arg0 (V : Valuation τ sig (Elt Ideal)) :
    after (ops0 (F := Ideal)) V (main_arg0 : DevRef τ sig) = V (main_arg0 : DevRef τ sig) := by
  after_results_simp

theorem win0_arg1 (V : Valuation τ sig (Elt Ideal)) :
    after (ops0 (F := Ideal)) V (main_arg1 : DevRef τ sig) = V (main_arg1 : DevRef τ sig) := by
  after_results_simp

theorem win0_arg2 (V : Valuation τ sig (Elt Ideal)) :
    after (ops0 (F := Ideal)) V (main_arg2 : DevRef τ sig) = V (main_arg2 : DevRef τ sig) := by
  after_results_simp

theorem win0_arg3 (V : Valuation τ sig (Elt Ideal)) :
    after (ops0 (F := Ideal)) V (main_arg3 : DevRef τ sig) = V (main_arg3 : DevRef τ sig) := by
  after_results_simp

theorem win0_arg4 (V : Valuation τ sig (Elt Ideal)) :
    after (ops0 (F := Ideal)) V (main_arg4 : DevRef τ sig) = V (main_arg4 : DevRef τ sig) := by
  after_results_simp

theorem win0_arg5 (V : Valuation τ sig (Elt Ideal)) :
    after (ops0 (F := Ideal)) V (main_arg5 : DevRef τ sig) = V (main_arg5 : DevRef τ sig) := by
  after_results_simp

theorem win0_arg6 (V : Valuation τ sig (Elt Ideal)) :
    after (ops0 (F := Ideal)) V (main_arg6 : DevRef τ sig) = V (main_arg6 : DevRef τ sig) := by
  after_results_simp

theorem win0_arg7 (V : Valuation τ sig (Elt Ideal)) :
    after (ops0 (F := Ideal)) V (main_arg7 : DevRef τ sig) = V (main_arg7 : DevRef τ sig) := by
  after_results_simp

theorem win0_arg8 (V : Valuation τ sig (Elt Ideal)) :
    after (ops0 (F := Ideal)) V (main_arg8 : DevRef τ sig) = V (main_arg8 : DevRef τ sig) := by
  after_results_simp

theorem win0_arg9 (V : Valuation τ sig (Elt Ideal)) :
    after (ops0 (F := Ideal)) V (main_arg9 : DevRef τ sig) = V (main_arg9 : DevRef τ sig) := by
  after_results_simp

theorem win0_arg10 (V : Valuation τ sig (Elt Ideal)) :
    after (ops0 (F := Ideal)) V (main_arg10 : DevRef τ sig) = V (main_arg10 : DevRef τ sig) := by
  after_results_simp

theorem win0_arg11 (V : Valuation τ sig (Elt Ideal)) :
    after (ops0 (F := Ideal)) V (main_arg11 : DevRef τ sig) = V (main_arg11 : DevRef τ sig) := by
  after_results_simp

end Cert.ReferenceIdeal.RefRun

end
-- ==== Proof.RefWin1.lean ====
/-
  The contents after the reference's second list of operations, from any contents before it.

  The first result is the user nodes' finishing step applied to their own rows' linear image (computed by the first
  list) plus the sums, at the user nodes, of the item-to-user messages; the second result is the item nodes' finishing
  step applied to the sum the first list left. No operation of the list writes an argument.
-/
import proofs.«124240_j52201032516155_2_alg».proof.Proof.RefOps
import proofs.«124240_j52201032516155_2_alg».proof.Proof.RefDefs
import proofs.«124240_j52201032516155_2_alg».proof.Proof.LibFold

noncomputable section

namespace Cert.ReferenceIdeal.RefRun

open Cert.ReferenceIdeal Cert.ReferenceIdeal.Gen Idealize.ShloMosaic Idealize.ShloMosaic.TcCoe Idealize.SL.Sem Idealize.ShloMosaic.StableHlo

-- the operations' functions stay closed while a list's contents are computed: the equations below never look inside them
attribute [local irreducible] Host.gather Host.scatterAdd Host.reduceAdd Host.divf Host.sqrt FloatOps.dotGeneral broadcastInDim

set_option maxRecDepth 8192 in
set_option maxHeartbeats 4000000 in
/-- The first result after the second list. -/
theorem win1_v73 (V : Valuation τ sig (Elt Ideal)) :
    after (ops1 (F := Ideal)) V (main_v73 : DevRef τ sig)
      = unitU (slopeU (addf (V (main_v3 : DevRef τ sig))
          (Host.scatterAdd (F := Ideal) scatter_S100000x128_S500000x1_S500000x128_1_0_0_1
            (broadcastInDim S100000x128 ![] bcast_S_S100000x128 (constant (F := Ideal) S_ .f32 0x00000000#32))
            (broadcastInDim S500000x1 ![0] bcast_S500000_S500000x1_0 (V (main_arg11 : DevRef τ sig)))
            (msgR (V (main_v44 : DevRef τ sig))
              (Host.gather gather_S100000x128_S500000x1_S500000x128_1_0_n_n_0_1_1128 (V (main_arg0 : DevRef τ sig)) (V (main_v50 : DevRef τ sig)))
              (V (main_arg7 : DevRef τ sig)) (V (main_arg2 : DevRef τ sig)) (V (main_arg3 : DevRef τ sig)) (V (main_arg4 : DevRef τ sig)) (V (main_arg5 : DevRef τ sig)))))) := by
  after_results_simp
  rfl

set_option maxRecDepth 8192 in
set_option maxHeartbeats 4000000 in
/-- The second result after the second list. -/
theorem win1_v79 (V : Valuation τ sig (Elt Ideal)) :
    after (ops1 (F := Ideal)) V (main_v79 : DevRef τ sig) = unitI (slopeI (V (main_v37 : DevRef τ sig))) := by
  after_results_simp
  rfl

theorem win1_arg0 (V : Valuation τ sig (Elt Ideal)) :
    after (ops1 (F := Ideal)) V (main_arg0 : DevRef τ sig) = V (main_arg0 : DevRef τ sig) := by
  after_results_simp

theorem win1_arg1 (V : Valuation τ sig (Elt Ideal)) :
    after (ops1 (F := Ideal)) V (main_arg1 : DevRef τ sig) = V (main_arg1 : DevRef τ sig) := by
  after_results_simp

theorem win1_arg2 (V : Valuation τ sig (Elt Ideal)) :
    after (ops1 (F := Ideal)) V (main_arg2 : DevRef τ sig) = V (main_arg2 : DevRef τ sig) := by
  after_results_simp

theorem win1_arg3 (V : Valuation τ sig (Elt Ideal)) :
    after (ops1 (F := Ideal)) V (main_arg3 : DevRef τ sig) = V (main_arg3 : DevRef τ sig) := by
  after_results_simp

theorem win1_arg4 (V : Valuation τ sig (Elt Ideal)) :
    after (ops1 (F := Ideal)) V (main_arg4 : DevRef τ sig) = V (main_arg4 : DevRef τ sig) := by
  after_results_simp

theorem win1_arg5 (V : Valuation τ sig (Elt Ideal)) :
    after (ops1 (F := Ideal)) V (main_arg5 : DevRef τ sig) = V (main_arg5 : DevRef τ sig) := by
  after_results_simp

theorem win1_arg6 (V : Valuation τ sig (Elt Ideal)) :
    after (ops1 (F := Ideal)) V (main_arg6 : DevRef τ sig) = V (main_arg6 : DevRef τ sig) := by
  after_results_simp

theorem win1_arg7 (V : Valuation τ sig (Elt Ideal)) :
    after (ops1 (F := Ideal)) V (main_arg7 : DevRef τ sig) = V (main_arg7 : DevRef τ sig) := by
  after_results_simp

theorem win1_arg8 (V : Valuation τ sig (Elt Ideal)) :
    after (ops1 (F := Ideal)) V (main_arg8 : DevRef τ sig) = V (main_arg8 : DevRef τ sig) := by
  after_results_simp

theorem win1_arg9 (V : Valuation τ sig (Elt Ideal)) :
    after (ops1 (F := Ideal)) V (main_arg9 : DevRef τ sig) = V (main_arg9 : DevRef τ sig) := by
  after_results_simp

theorem win1_arg10 (V : Valuation τ sig (Elt Ideal)) :
    after (ops1 (F := Ideal)) V (main_arg10 : DevRef τ sig) = V (main_arg10 : DevRef τ sig) := by
  after_results_simp

theorem win1_arg11 (V : Valuation τ sig (Elt Ideal)) :
    after (ops1 (F := Ideal)) V (main_arg11 : DevRef τ sig) = V (main_arg11 : DevRef τ sig) := by
  after_results_simp

end Cert.ReferenceIdeal.RefRun

end
-- ==== Proof.RefRun.lean ====
/-
  The reference's run: both results as whole-array terms of the arguments, the arguments unchanged.

  The contents after the whole list are the contents after its second part from those after its first. Reading the
  second part's results from any contents, and then the four buffers and the arguments it reads from the first part's
  results, gives each result as one term of the launch contents of the arguments: the user nodes' and the item nodes'
  new rows. Every weakly fair execution of the entry function terminates with the result buffers at these terms.
-/
import proofs.«124240_j52201032516155_2_alg».proof.Proof.RefWin0
import proofs.«124240_j52201032516155_2_alg».proof.Proof.RefWin1

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The first result after the whole list. -/
theorem res_v73 (V : Valuation τ sig (Elt Ideal)) :
    after (ops (F := Ideal)) V (main_v73 : DevRef τ sig)
      = outU (V (main_arg0 : DevRef τ sig)) (V (main_arg1 : DevRef τ sig)) (V (main_arg2 : DevRef τ sig)) (V (main_arg3 : DevRef τ sig)) (V (main_arg4 : DevRef τ sig)) (V (main_arg5 : DevRef τ sig))
          (V (main_arg7 : DevRef τ sig)) (V (main_arg10 : DevRef τ sig)) (V (main_arg11 : DevRef τ sig)) := by
  rw [show after (ops (F := Ideal)) V = after ops1 (after ops0 V) from after_append ops0 ops1 V, win1_v73, win0_v3, win0_v44,
    win0_v50, win0_arg0, win0_arg2, win0_arg3, win0_arg4, win0_arg5, win0_arg7, win0_arg11]
  rfl

/-- The second result after the whole list. -/
theorem res_v79 (V : Valuation τ sig (Elt Ideal)) :
    after (ops (F := Ideal)) V (main_v79 : DevRef τ sig)
      = outI (V (main_arg0 : DevRef τ sig)) (V (main_arg1 : DevRef τ sig)) (V (main_arg2 : DevRef τ sig)) (V (main_arg3 : DevRef τ sig)) (V (main_arg4 : DevRef τ sig)) (V (main_arg5 : DevRef τ sig))
          (V (main_arg6 : DevRef τ sig)) (V (main_arg8 : DevRef τ sig)) (V (main_arg9 : DevRef τ sig)) := by
  rw [show after (ops (F := Ideal)) V = after ops1 (after ops0 V) from after_append ops0 ops1 V, win1_v79, win0_v37]
  rfl

theorem res_arg0 (V : Valuation τ sig (Elt Ideal)) :
    after (ops (F := Ideal)) V (main_arg0 : DevRef τ sig) = V (main_arg0 : DevRef τ sig) := by
  rw [show after (ops (F := Ideal)) V = after ops1 (after ops0 V) from after_append ops0 ops1 V, win1_arg0, win0_arg0]

theorem res_arg1 (V : Valuation τ sig (Elt Ideal)) :
    after (ops (F := Ideal)) V (main_arg1 : DevRef τ sig) = V (main_arg1 : DevRef τ sig) := by
  rw [show after (ops (F := Ideal)) V = after ops1 (after ops0 V) from after_append ops0 ops1 V, win1_arg1, win0_arg1]

theorem res_arg2 (V : Valuation τ sig (Elt Ideal)) :
    after (ops (F := Ideal)) V (main_arg2 : DevRef τ sig) = V (main_arg2 : DevRef τ sig) := by
  rw [show after (ops (F := Ideal)) V = after ops1 (after ops0 V) from after_append ops0 ops1 V, win1_arg2, win0_arg2]

theorem res_arg3 (V : Valuation τ sig (Elt Ideal)) :
    after (ops (F := Ideal)) V (main_arg3 : DevRef τ sig) = V (main_arg3 : DevRef τ sig) := by
  rw [show after (ops (F := Ideal)) V = after ops1 (after ops0 V) from after_append ops0 ops1 V, win1_arg3, win0_arg3]

theorem res_arg4 (V : Valuation τ sig (Elt Ideal)) :
    after (ops (F := Ideal)) V (main_arg4 : DevRef τ sig) = V (main_arg4 : DevRef τ sig) := by
  rw [show after (ops (F := Ideal)) V = after ops1 (after ops0 V) from after_append ops0 ops1 V, win1_arg4, win0_arg4]

theorem res_arg5 (V : Valuation τ sig (Elt Ideal)) :
    after (ops (F := Ideal)) V (main_arg5 : DevRef τ sig) = V (main_arg5 : DevRef τ sig) := by
  rw [show after (ops (F := Ideal)) V = after ops1 (after ops0 V) from after_append ops0 ops1 V, win1_arg5, win0_arg5]

theorem res_arg6 (V : Valuation τ sig (Elt Ideal)) :
    after (ops (F := Ideal)) V (main_arg6 : DevRef τ sig) = V (main_arg6 : DevRef τ sig) := by
  rw [show after (ops (F := Ideal)) V = after ops1 (after ops0 V) from after_append ops0 ops1 V, win1_arg6, win0_arg6]

theorem res_arg7 (V : Valuation τ sig (Elt Ideal)) :
    after (ops (F := Ideal)) V (main_arg7 : DevRef τ sig) = V (main_arg7 : DevRef τ sig) := by
  rw [show after (ops (F := Ideal)) V = after ops1 (after ops0 V) from after_append ops0 ops1 V, win1_arg7, win0_arg7]

theorem res_arg8 (V : Valuation τ sig (Elt Ideal)) :
    after (ops (F := Ideal)) V (main_arg8 : DevRef τ sig) = V (main_arg8 : DevRef τ sig) := by
  rw [show after (ops (F := Ideal)) V = after ops1 (after ops0 V) from after_append ops0 ops1 V, win1_arg8, win0_arg8]

theorem res_arg9 (V : Valuation τ sig (Elt Ideal)) :
    after (ops (F := Ideal)) V (main_arg9 : DevRef τ sig) = V (main_arg9 : DevRef τ sig) := by
  rw [show after (ops (F := Ideal)) V = after ops1 (after ops0 V) from after_append ops0 ops1 V, win1_arg9, win0_arg9]

theorem res_arg10 (V : Valuation τ sig (Elt Ideal)) :
    after (ops (F := Ideal)) V (main_arg10 : DevRef τ sig) = V (main_arg10 : DevRef τ sig) := by
  rw [show after (ops (F := Ideal)) V = after ops1 (after ops0 V) from after_append ops0 ops1 V, win1_arg10, win0_arg10]

theorem res_arg11 (V : Valuation τ sig (Elt Ideal)) :
    after (ops (F := Ideal)) V (main_arg11 : DevRef τ sig) = V (main_arg11 : DevRef τ sig) := by
  rw [show after (ops (F := Ideal)) V = after ops1 (after ops0 V) from after_append ops0 ops1 V, win1_arg11, win0_arg11]

/-- On every device, from any memory with zero counters: every weakly fair execution of the reference's entry function
    terminates with the two results at the user nodes' and the item nodes' new rows of the arguments' launch contents, and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v73) = outU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg10)) (m ((c.tc : Thread nD τ).loc main_arg11))
      ∧ r.2.mem ((c.tc : Thread nD τ).loc main_v79) = outI (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v73).trans (res_v73 (launchContents m c)),
      (h c main_v79).trans (res_v79 (launchContents m c)),
      (h c main_arg0).trans (res_arg0 (launchContents m c)),
      (h c main_arg1).trans (res_arg1 (launchContents m c)),
      (h c main_arg2).trans (res_arg2 (launchContents m c)),
      (h c main_arg3).trans (res_arg3 (launchContents m c)),
      (h c main_arg4).trans (res_arg4 (launchContents m c)),
      (h c main_arg5).trans (res_arg5 (launchContents m c)),
      (h c main_arg6).trans (res_arg6 (launchContents m c)),
      (h c main_arg7).trans (res_arg7 (launchContents m c)),
      (h c main_arg8).trans (res_arg8 (launchContents m c)),
      (h c main_arg9).trans (res_arg9 (launchContents m c)),
      (h c main_arg10).trans (res_arg10 (launchContents m c)),
      (h c main_arg11).trans (res_arg11 (launchContents m c))⟩)
    (run_seq scopedRefs_eq scopedSems_eq defs main (fun _ => ops) main_eq (fun _ => ops_sub) m ρ)

end Cert.ReferenceIdeal.RefRun

end
-- ==== Proof.RefRead.lean ====
/-
  The reference's whole-array terms read at an entry.

  Each of the reference's operations reads, at an entry of its result, entries of its operands in the same row:
  a matrix product with a square matrix is a sum over the contracted index; a bias broadcast down the rows reads
  the bias at the column; a column of per-row values broadcast along a row reads the row's value; a sum of squares
  along a row is the sum over the row's entries; a scalar broadcast reads the scalar. Put together, an entry of
  the messages is the specification's message entry, and an entry of a node kind's new rows is the
  specification's finished entry. The slope's test (at least zero) and the specification's (above zero) agree
  because at zero both branches give zero.
-/
import proofs.«124240_j52201032516155_2_alg».proof.Proof.Spec
import proofs.«124240_j52201032516155_2_alg».proof.Proof.RefDefs
import proofs.«124240_j52201032516155_2_alg».proof.Proof.LibDotRows
import proofs.«124240_j52201032516155_2_alg».proof.Proof.LibColumns
import Idealize.ShloMosaic.Lib.IdealHost
import Idealize.ShloMosaic.Lib.Pipeline.Value

noncomputable section

namespace Cert.ReferenceIdeal.RefRead

open Cert.ReferenceIdeal Cert.ReferenceIdeal.Gen Cert.ReferenceIdeal.RefRun Idealize.ShloMosaic Idealize.ShloMosaic.ValueIdx
open Cert.Hand

/-! ## Broadcasts read at an entry -/

/-- A bias over the columns, made a row and broadcast down `R` rows, reads at `(r, j)` the bias at `j`. -/
theorem bias_apply {α : Type} {R : ℕ} (h1 : S128.BroadcastsInDim S1x128 ![1])
    (h2 : S1x128.BroadcastsInDim (⟨2, ![R, 128]⟩ : Shape) ![0, 1]) (c : S128.Idx → α) (r : Fin R) (j : Fin 128) :
    broadcastInDim (⟨2, ![R, 128]⟩ : Shape) ![0, 1] h2 (broadcastInDim S1x128 ![1] h1 c) (ix2 r j) = c (ix1 j) := by
  rw [broadcastInDim_apply ![0, 1] h2 _ (ix2 r j) (ix2 (0 : Fin 1) j) (fun a => by
        match a with
        | ⟨0, _⟩ => rfl
        | ⟨1, _⟩ => rfl),
    broadcastInDim_apply ![1] h1 c (ix2 (0 : Fin 1) j) (ix1 j) (fun a => by
        match a with
        | ⟨0, _⟩ => rfl)]

/-- A column of per-row values broadcast along the rows reads at `(r, j)` row `r`'s value. -/
theorem col_apply {α : Type} {R : ℕ} (h : (⟨2, ![R, 1]⟩ : Shape).BroadcastsInDim (⟨2, ![R, 128]⟩ : Shape) ![0, 1])
    (v : (⟨2, ![R, 1]⟩ : Shape).Idx → α) (r : Fin R) (j : Fin 128) :
    broadcastInDim (⟨2, ![R, 128]⟩ : Shape) ![0, 1] h v (ix2 r j) = v (ix2 r (0 : Fin 1)) :=
  broadcastInDim_apply ![0, 1] h v (ix2 r j) (ix2 r (0 : Fin 1)) (fun a => by
    match a with
    | ⟨0, _⟩ =>
      show r.val = if R = 1 then 0 else r.val
      split
      · have := r.isLt; omega
      · rfl
    | ⟨1, _⟩ => rfl)

/-- A vector of per-row values made a column reads at `(r, 0)` entry `r`. -/
theorem keep_apply {α : Type} {R : ℕ} (h : (⟨1, ![R]⟩ : Shape).BroadcastsInDim (⟨2, ![R, 1]⟩ : Shape) ![0])
    (v : (⟨1, ![R]⟩ : Shape).Idx → α) (r : Fin R) (u : Fin 1) :
    broadcastInDim (⟨2, ![R, 1]⟩ : Shape) ![0] h v (ix2 r u) = v (ix1 r) :=
  broadcastInDim_apply ![0] h v (ix2 r u) (ix1 r) (fun a => by
    match a with
    | ⟨0, _⟩ =>
      show r.val = if R = 1 then 0 else r.val
      split
      · have := r.isLt; omega
      · rfl)

/-! ## The slope at an entry -/

/-- An entry kept where it is at least zero and scaled by the slope elsewhere is the specification's sloped entry: the
    comparison's one-bit word is one exactly when the entry is at least zero, and at zero the two branches agree. -/
theorem slope_entry {s : Shape} (hb : S_.BroadcastsInDim s ![]) (h : FVec Ideal s .f32) (i : s.Idx) :
    select (cmpf .oge h (broadcastInDim s ![] hb (constant (F := Ideal) S_ .f32 0x00000000#32))) h
        (mulf (broadcastInDim s ![] hb (id (constant (F := Ideal) S_ .f32 0x3E4CCCCD#32))) h) i
      = Cert.Spec.leaky (h i) := by
  rw [select_apply, cmpf_apply, mulf_apply, broadcastInDim_scalar_apply, broadcastInDim_scalar_apply, id_eq, constant_apply,
    constant_apply, Ideal.ofBits_zero_f32, Ideal.cmpf_def, ← Cert.Spec.leaky_of_le]
  show Scalar.select (BitVec.ofBool (decide ((0 : EReal) ≤ h i))) (h i) (Cert.Spec.slope * h i) = _
  by_cases h0 : (0 : EReal) ≤ h i
  · rw [decide_eq_true h0, if_pos h0]; exact select_one _ _
  · rw [decide_eq_false h0, if_neg h0]; exact select_zero _ _

/-! ## The messages -/

/-- A product of the edges' gathered rows with a square matrix, read at an entry. -/
theorem dotE_apply (l : FVec Ideal S500000x128 .f32) (r : FVec Ideal S128x128 .f32) (p : Fin 500000) (q : Fin 128) :
    Host.dotGeneral (F := Ideal) dot_S500000x128_S128x128_S500000x128_1_0_0_1_n_n none l r (ix2 p q) = ∑ k : Fin 128, l (ix2 p k) * r (ix2 k q) := by
  refine (Ideal.dotGeneral_apply dot_S500000x128_S128x128_S500000x128_1_0_0_1_n_n none .single l r (ix2 p q)).trans ?_
  dot_rows dot_S500000x128_S128x128_S500000x128_1_0_0_1_n_n S500000x128 S128x128 128

/-- An entry of the messages of one edge list is the specification's message entry. -/
theorem msgR_apply (a b : FVec Ideal S500000x128 .f32) (n : FVec Ideal S500000x1 .f32) (w1 : FVec Ideal S128x128 .f32)
    (c1 : FVec Ideal S128 .f32) (w2 : FVec Ideal S128x128 .f32) (c2 : FVec Ideal S128 .f32) (r : Fin 500000) (j : Fin 128) :
    msgR a b n w1 c1 w2 c2 (ix2 r j) = Cert.Spec.msgAt a b n w1 c1 w2 c2 r j := by
  unfold msgR Cert.Spec.msgAt
  rw [mulf_apply, addf_apply, addf_apply, addf_apply, col_apply, bias_apply, bias_apply, dotE_apply, dotE_apply]
  simp only [mulf_apply]

/-! ## The user nodes -/

/-- A product of the user nodes' rows with a square matrix, read at an entry. -/
theorem dotU_apply (l : FVec Ideal S100000x128 .f32) (r : FVec Ideal S128x128 .f32) (p : Fin 100000) (q : Fin 128) :
    Host.dotGeneral (F := Ideal) dot_S100000x128_S128x128_S100000x128_1_0_0_1_n_n none l r (ix2 p q) = ∑ k : Fin 128, l (ix2 p k) * r (ix2 k q) := by
  refine (Ideal.dotGeneral_apply dot_S100000x128_S128x128_S100000x128_1_0_0_1_n_n none .single l r (ix2 p q)).trans ?_
  dot_rows dot_S100000x128_S128x128_S100000x128_1_0_0_1_n_n S100000x128 S128x128 128

/-- The sum of squares along a user row, read at the row. -/
theorem sumsqU_apply (l : FVec Ideal S100000x128 .f32) (r : Fin 100000) :
    Host.reduceAdd (F := Ideal) (mulf l l) (constant (F := Ideal) S_ .f32 0x00000000#32) reducesTo_S100000x128_S100000_d1 h_S_ (ix1 r)
      = ∑ k : Fin 128, l (ix2 r k) * l (ix2 r k) := by
  have h : S100000x128.Reduces [1] S100000 := by decide
  rw [hostReduceAdd_apply, Ideal.hostReduceAdd_single reducesTo_S100000x128_S100000_d1 h, constant_apply, Ideal.ofBits_zero_f32, zero_add]
  exact congrArg (fun f => Finset.sum (Finset.univ : Finset (Fin 128)) f)
    (funext fun k => congrArg (mulf l l) (Cert.Columns.lift_row h r k))

/-- A user node's row before the slope, read at an entry. -/
theorem preU_apply (x : FVec Ideal S100000x128 .f32) (w : FVec Ideal S128x128 .f32) (c : FVec Ideal S128 .f32)
    (s : FVec Ideal S100000x128 .f32) (r : Fin 100000) (j : Fin 128) :
    preU x w c s (ix2 r j) = Cert.Spec.preAt x w c s r j := by
  unfold preU Cert.Spec.preAt
  rw [addf_apply, addf_apply, dotU_apply, bias_apply]

/-- The slope on the user nodes' rows, read at an entry. -/
theorem slopeU_apply (h : FVec Ideal S100000x128 .f32) (i : S100000x128.Idx) : slopeU h i = Cert.Spec.leaky (h i) := by
  unfold slopeU
  exact slope_entry bcast_S_S100000x128 h i

/-- The user nodes' rows divided by their floored lengths, read at an entry. -/
theorem unitU_apply (l : FVec Ideal S100000x128 .f32) (r : Fin 100000) (j : Fin 128) :
    unitU l (ix2 r j)
      = Ideal.div (l (ix2 r j)) (max (Ideal.sqrt (∑ q : Fin 128, l (ix2 r q) * l (ix2 r q))) Cert.Spec.tiny) := by
  unfold unitU Host.divf
  rw [Ideal.hostDivf_def, col_apply, maximumf_apply]
  unfold Host.sqrt
  rw [Ideal.hostUnary_sqrt_def, keep_apply, sumsqU_apply, broadcastInDim_scalar_apply, constant_apply]

/-- The user nodes' new rows, read at an entry. -/
theorem finU_apply (x : FVec Ideal S100000x128 .f32) (w : FVec Ideal S128x128 .f32) (c : FVec Ideal S128 .f32)
    (s : FVec Ideal S100000x128 .f32) (r : Fin 100000) (j : Fin 128) :
    finU x w c s (ix2 r j) = Cert.Spec.finAt x w c s r j := by
  unfold finU Cert.Spec.finAt
  rw [unitU_apply]
  simp only [slopeU_apply, preU_apply]

/-! ## The item nodes -/

/-- A product of the item nodes' rows with a square matrix, read at an entry. -/
theorem dotI_apply (l : FVec Ideal S50000x128 .f32) (r : FVec Ideal S128x128 .f32) (p : Fin 50000) (q : Fin 128) :
    Host.dotGeneral (F := Ideal) dot_S50000x128_S128x128_S50000x128_1_0_0_1_n_n none l r (ix2 p q) = ∑ k : Fin 128, l (ix2 p k) * r (ix2 k q) := by
  refine (Ideal.dotGeneral_apply dot_S50000x128_S128x128_S50000x128_1_0_0_1_n_n none .single l r (ix2 p q)).trans ?_
  dot_rows dot_S50000x128_S128x128_S50000x128_1_0_0_1_n_n S50000x128 S128x128 128

/-- The sum of squares along a item row, read at the row. -/
theorem sumsqI_apply (l : FVec Ideal S50000x128 .f32) (r : Fin 50000) :
    Host.reduceAdd (F := Ideal) (mulf l l) (constant (F := Ideal) S_ .f32 0x00000000#32) reducesTo_S50000x128_S50000_d1 h_S_ (ix1 r)
      = ∑ k : Fin 128, l (ix2 r k) * l (ix2 r k) := by
  have h : S50000x128.Reduces [1] S50000 := by decide
  rw [hostReduceAdd_apply, Ideal.hostReduceAdd_single reducesTo_S50000x128_S50000_d1 h, constant_apply, Ideal.ofBits_zero_f32, zero_add]
  exact congrArg (fun f => Finset.sum (Finset.univ : Finset (Fin 128)) f)
    (funext fun k => congrArg (mulf l l) (Cert.Columns.lift_row h r k))

/-- A item node's row before the slope, read at an entry. -/
theorem preI_apply (x : FVec Ideal S50000x128 .f32) (w : FVec Ideal S128x128 .f32) (c : FVec Ideal S128 .f32)
    (s : FVec Ideal S50000x128 .f32) (r : Fin 50000) (j : Fin 128) :
    preI x w c s (ix2 r j) = Cert.Spec.preAt x w c s r j := by
  unfold preI Cert.Spec.preAt
  rw [addf_apply, addf_apply, dotI_apply, bias_apply]

/-- The slope on the item nodes' rows, read at an entry. -/
theorem slopeI_apply (h : FVec Ideal S50000x128 .f32) (i : S50000x128.Idx) : slopeI h i = Cert.Spec.leaky (h i) := by
  unfold slopeI
  exact slope_entry bcast_S_S50000x128 h i

/-- The item nodes' rows divided by their floored lengths, read at an entry. -/
theorem unitI_apply (l : FVec Ideal S50000x128 .f32) (r : Fin 50000) (j : Fin 128) :
    unitI l (ix2 r j)
      = Ideal.div (l (ix2 r j)) (max (Ideal.sqrt (∑ q : Fin 128, l (ix2 r q) * l (ix2 r q))) Cert.Spec.tiny) := by
  unfold unitI Host.divf
  rw [Ideal.hostDivf_def, col_apply, maximumf_apply]
  unfold Host.sqrt
  rw [Ideal.hostUnary_sqrt_def, keep_apply, sumsqI_apply, broadcastInDim_scalar_apply, constant_apply]

/-- The item nodes' new rows, read at an entry. -/
theorem finI_apply (x : FVec Ideal S50000x128 .f32) (w : FVec Ideal S128x128 .f32) (c : FVec Ideal S128 .f32)
    (s : FVec Ideal S50000x128 .f32) (r : Fin 50000) (j : Fin 128) :
    finI x w c s (ix2 r j) = Cert.Spec.finAt x w c s r j := by
  unfold finI Cert.Spec.finAt
  rw [unitI_apply]
  simp only [slopeI_apply, preI_apply]

end Cert.ReferenceIdeal.RefRead

end
-- ==== Proof.Bridge.lean ====
/-
  The reference's two results are the kernel program's two results, as functions of the twelve arguments.

  Entry by entry the reference's message array and its two finished arrays are the specification's (the reference's
  read-at-an-entry lemmas), which is also what the kernel program's regions leave. Around them both programs apply
  the same host operations to the same operands: the same wrapping of negative indices, the same row gathers and the
  same scatter with addition into zeros; the two programs' printed copies of these operations differ in name only.
-/
import proofs.«124240_j52201032516155_2_alg».proof.Proof.RefDefs
import proofs.«124240_j52201032516155_2_alg».proof.Proof.RefRead
import proofs.«124240_j52201032516155_2_alg».proof.Proof.KValue

noncomputable section

open Idealize.ShloMosaic Idealize.ShloMosaic.ValueIdx

namespace Cert.Bridge

open Cert.ReferenceIdeal.RefRun

/-- The reference's message array is the specification's. -/
theorem msgR_eq (a b : FVec Ideal Cert.ReferenceIdeal.S500000x128 .f32) (n : FVec Ideal Cert.ReferenceIdeal.S500000x1 .f32)
    (w1 : FVec Ideal Cert.ReferenceIdeal.S128x128 .f32) (c1 : FVec Ideal Cert.ReferenceIdeal.S128 .f32)
    (w2 : FVec Ideal Cert.ReferenceIdeal.S128x128 .f32) (c2 : FVec Ideal Cert.ReferenceIdeal.S128 .f32) :
    msgR a b n w1 c1 w2 c2 = Cert.Spec.msg a b n w1 c1 w2 c2 := by
  funext i
  obtain ⟨r, j, rfl⟩ : ∃ (r : Fin 500000) (j : Fin 128), i = ix2 r j := ⟨i 0, i 1, eq_ix2 i⟩
  exact Cert.ReferenceIdeal.RefRead.msgR_apply a b n w1 c1 w2 c2 r j

/-- The reference's finished user array is the specification's. -/
theorem finU_eq (x : FVec Ideal Cert.ReferenceIdeal.S100000x128 .f32) (w : FVec Ideal Cert.ReferenceIdeal.S128x128 .f32)
    (c : FVec Ideal Cert.ReferenceIdeal.S128 .f32) (s : FVec Ideal Cert.ReferenceIdeal.S100000x128 .f32) :
    finU x w c s = Cert.Spec.fin x w c s := by
  funext i
  obtain ⟨r, j, rfl⟩ : ∃ (r : Fin 100000) (j : Fin 128), i = ix2 r j := ⟨i 0, i 1, eq_ix2 i⟩
  exact Cert.ReferenceIdeal.RefRead.finU_apply x w c s r j

/-- The reference's finished item array is the specification's. -/
theorem finI_eq (x : FVec Ideal Cert.ReferenceIdeal.S50000x128 .f32) (w : FVec Ideal Cert.ReferenceIdeal.S128x128 .f32)
    (c : FVec Ideal Cert.ReferenceIdeal.S128 .f32) (s : FVec Ideal Cert.ReferenceIdeal.S50000x128 .f32) :
    finI x w c s = Cert.Spec.fin x w c s := by
  funext i
  obtain ⟨r, j, rfl⟩ : ∃ (r : Fin 50000) (j : Fin 128), i = ix2 r j := ⟨i 0, i 1, eq_ix2 i⟩
  exact Cert.ReferenceIdeal.RefRead.finI_apply x w c s r j

/-- The two programs wrap negative indices alike. -/
theorem wrapCol_eq (n : BitVec 32) (e : IVec Cert.ReferenceIdeal.S500000 32) :
    wrapCol n e = Cert.KernelIdeal.KBound.wrapCol n e := rfl

/-- The reference's user result is the kernel program's. -/
theorem outU_eq (a0 : FVec Ideal Cert.ReferenceIdeal.S100000x128 .f32) (a1 : FVec Ideal Cert.ReferenceIdeal.S50000x128 .f32)
    (a2 : FVec Ideal Cert.ReferenceIdeal.S128x128 .f32) (a3 : FVec Ideal Cert.ReferenceIdeal.S128 .f32)
    (a4 : FVec Ideal Cert.ReferenceIdeal.S128x128 .f32) (a5 : FVec Ideal Cert.ReferenceIdeal.S128 .f32)
    (a7 : FVec Ideal Cert.ReferenceIdeal.S500000x1 .f32) (a10 a11 : IVec Cert.ReferenceIdeal.S500000 32) :
    outU a0 a1 a2 a3 a4 a5 a7 a10 a11 = Cert.KernelIdeal.KValue.outUser a0 a1 a2 a3 a4 a5 a7 a10 a11 := by
  unfold outU Cert.KernelIdeal.KValue.outUser Cert.KernelIdeal.KBound.scatU
  rw [finU_eq, msgR_eq, wrapCol_eq, wrapCol_eq]
  rfl

/-- The reference's item result is the kernel program's. -/
theorem outI_eq (a0 : FVec Ideal Cert.ReferenceIdeal.S100000x128 .f32) (a1 : FVec Ideal Cert.ReferenceIdeal.S50000x128 .f32)
    (a2 : FVec Ideal Cert.ReferenceIdeal.S128x128 .f32) (a3 : FVec Ideal Cert.ReferenceIdeal.S128 .f32)
    (a4 : FVec Ideal Cert.ReferenceIdeal.S128x128 .f32) (a5 : FVec Ideal Cert.ReferenceIdeal.S128 .f32)
    (a6 : FVec Ideal Cert.ReferenceIdeal.S500000x1 .f32) (a8 a9 : IVec Cert.ReferenceIdeal.S500000 32) :
    outI a0 a1 a2 a3 a4 a5 a6 a8 a9 = Cert.KernelIdeal.KValue.outItem a0 a1 a2 a3 a4 a5 a6 a8 a9 := by
  unfold outI Cert.KernelIdeal.KValue.outItem Cert.KernelIdeal.KBound.scatI
  rw [finI_eq, msgR_eq, wrapCol_eq, wrapCol_eq]
  rfl

end Cert.Bridge

end
-- ==== Proof.lean ====
/-
  One round of message passing between users and items: the Pallas program against its plain reference.

  Both programs compute, for each of the two edge lists, a message per edge — the edge's weight times the source
  row through one linear map plus the entrywise product of source and destination rows through another, biases
  added —, add the messages up at their destination nodes, and give every node its own row through the first linear
  map plus the arriving sum, sloped on the non-positive side and divided by its Euclidean length (floored by a tiny
  constant). The kernel program computes the messages and the finished rows in blocks of 5000 rows inside four
  pipelined regions and leaves the gathers and the summation to the host; the reference does everything on whole
  arrays. Over the extended reals a change of number format is the identity and a matrix product is the plain sum
  either way, every entry of a message or of a finished row reads only its own row of the operands, and the two
  tests against zero (strict in the kernel, weak in the reference) agree because the slope times zero is zero: so
  the two programs' results are the same functions of the arguments. No argument needs to be finite for this.

  The three frame claims are the generated frames of the two kernel programs and, for the reference, its run with
  the results dropped; the idealized kernel program is the printed program read over the extended reals with no
  rewrite, so there is nothing to preserve.
-/
import proofs.«124240_j52201032516155_2_alg».proof.Defs
import proofs.«124240_j52201032516155_2_alg».proof.Proof.Gen.Kernel
import proofs.«124240_j52201032516155_2_alg».proof.Proof.Gen.Kernel.Frame
import proofs.«124240_j52201032516155_2_alg».proof.Proof.Gen.KernelIdeal
import proofs.«124240_j52201032516155_2_alg».proof.Proof.Gen.KernelIdeal.Frame
import proofs.«124240_j52201032516155_2_alg».proof.Proof.Gen.ReferenceIdeal
import proofs.«124240_j52201032516155_2_alg».proof.Proof.Gen.Pre_finite_inputs
import proofs.«124240_j52201032516155_2_alg».proof.Proof.KValue
import proofs.«124240_j52201032516155_2_alg».proof.Proof.RefRun
import proofs.«124240_j52201032516155_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs to the end and leaves its arguments alone. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference's run, with what it says about the two results dropped. -/
theorem frame_reference_ideal : Cert.frame_ReferenceIdeal := fun m ρ _ =>
  (θ_run Cert.ReferenceIdeal.defs _ _).mono (fun _ h c => (h c).2.2) (Cert.ReferenceIdeal.RefRun.run m ρ)

/-- The idealization rewrote nothing. -/
theorem preserves : Cert.preserves_Kernel_KernelIdeal := trivial

/-- From memories that agree on the twelve arguments both programs end with the user rows at `outUser` and the item
    rows at `outItem` of the arguments: the kernel program by its run read back through its regions, the reference by
    its run and the entry-by-entry reading of its terms. -/
theorem algebraic : Cert.algebraic_KernelIdeal_ReferenceIdeal := by
  intro m ρ m' ρ' _ hagree
  refine ⟨fun c => Cert.KernelIdeal.KValue.outUser (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.KValue.outItem (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KValue.run m ρ, ?_⟩
  refine (θ_run Cert.ReferenceIdeal.defs _ _).mono (fun _ h c => ?_) (Cert.ReferenceIdeal.RefRun.run m' ρ')
  obtain ⟨h1, h2, hargs⟩ := h c
  obtain ⟨g0, g1, g2, g3, g4, g5, g6, g7, g8, g9, g10, g11⟩ := hagree c
  refine ⟨h1.trans ?_, h2.trans ?_, hargs⟩
  · rw [g0, g1, g2, g3, g4, g5, g7, g10, g11]
    exact Cert.Bridge.outU_eq _ _ _ _ _ _ _ _ _
  · rw [g0, g1, g2, g3, g4, g5, g6, g8, g9]
    exact Cert.Bridge.outI_eq _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
